-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x256 .f32) (main_arg5 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S256x512 .f32) (main_arg3 : FVec F S256 .f32) (main_arg4 : FVec F S512x256 .f32) (main_arg5 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1x256 : Shape := ⟨2, ![1, 256]⟩
abbrev S1x512 : Shape := ⟨2, ![1, 512]⟩
abbrev S1024x512 : Shape := ⟨2, ![1024, 512]⟩
abbrev S1024x256 : Shape := ⟨2, ![1024, 256]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S2048x512 : Shape := ⟨2, ![2048, 512]⟩
abbrev S1x2048 : Shape := ⟨2, ![1, 2048]⟩

abbrev nBuf : Space → Nat
  | .hbm => 26
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S512, .f32⟩
  | .hbm, ⟨6, _⟩ => ⟨S1x256, .f32⟩
  | .hbm, ⟨7, _⟩ => ⟨S1x512, .f32⟩
  | .hbm, ⟨8, _⟩ => ⟨S8192x512, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .i1⟩
  | .hbm, ⟨20, _⟩ => ⟨S_, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S1x8192, .f32⟩
  | .hbm, ⟨25, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S1x256, .f32⟩
  | .local _ .vmem, ⟨4, _⟩ => ⟨S512x256, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .f32⟩
  | .local _ .vmem, ⟨9, _⟩ => ⟨S1024x2048, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x2048, .f32⟩
  | .local _ .vmem, ⟨14, _⟩ => ⟨S1024x2048, .f32⟩
  | .local _ .vmem, ⟨15, _⟩ => ⟨S2048x512, .f32⟩
  | .local _ .vmem, ⟨16, _⟩ => ⟨S2048x512, .f32⟩
  | .local _ .vmem, ⟨17, _⟩ => ⟨S1024x512, .f32⟩
  | .local _ .vmem, ⟨18, _⟩ => ⟨S1024x512, .f32⟩
  | .local _ .vmem, ⟨19, _⟩ => ⟨S1024x1, .f32⟩
  | .local _ .vmem, ⟨20, _⟩ => ⟨S1024x1, .f32⟩
  | .local _ .vmem, ⟨21, _⟩ => ⟨S1x2048, .f32⟩
  | .local _ .vmem, ⟨22, _⟩ => ⟨S1x2048, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v8 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  shapeCasts_S256_S1x256 : S256.ShapeCasts S1x256
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  shapeCasts_S1024x512_S1024x512 : S1024x512.ShapeCasts S1024x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1024x1_S1024x512 : S1024x1.Broadcasts S1024x512
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .f32 = 32 ∨ (Rect.block (s := S8192x512) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x512.size a
  hwx2_2 : ∀ i : grid2.Coords, EltTy.bits .f32 = 32 ∨ (Rect.block (s := S8192x512) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x8192.size a
  hwx2_4 : ∀ i : grid2.Coords, EltTy.bits .f32 = 32 ∨ (Rect.block (s := S1x8192) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S8192x512.size a
  hwx2_5 : ∀ i : grid2.Coords, EltTy.bits .f32 = 32 ∨ (Rect.block (s := S8192x512) S1024x512.size (cc2_transform_5 i) (hinb2_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1024x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S256x512 : Shape := ⟨2, ![256, 512]⟩
abbrev S256 : Shape := ⟨1, ![256]⟩
abbrev S512x256 : Shape := ⟨2, ![512, 256]⟩
abbrev S512 : Shape := ⟨1, ![512]⟩
abbrev S8192x256 : Shape := ⟨2, ![8192, 256]⟩
abbrev S1x256 : Shape := ⟨2, ![1, 256]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S512, .f32⟩
  | .hbm, ⟨6, _⟩ => ⟨S512x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S256x512, .f32⟩
  | .hbm, ⟨12, _⟩ => ⟨S8192x512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .i1⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_v20 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S512x256_S256x512_1_0 : S512x256.Transposes [1, 0] S256x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x512_S512x256_S8192x256_1_0_0_1_n_n_wf : DotDims.WF S8192x512 S512x256 S8192x256 [1] [0] [0] [1] [] []
  dot_S8192x256_S256x512_S8192x512_1_0_0_1_n_n_wf : DotDims.WF S8192x256 S256x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Reg0.lean ====
/-
  The dense-projection region (the first kernel call): grid of 8 points, point i handling rows 1024·i … 1024·i + 1023.
  Five input windows — the block of x, and W1, b1 (as a row), W2, b2 (as a row) whole — and one output window, the
  block of h = (x·W1ᵀ + b1)·W2ᵀ + b2, stored whole by one store and written back at every point.

  This module: each window's block at the contents V the region is entered with, the output block after the body as
  the one store over the body's payload, the body's run, the proof data and the body obligation.
-/
import proofs.«135736_j29987461660874_1_alg».proof.Proof.Gen.Kernel.Launch
import proofs.«135736_j29987461660874_1_alg».proof.Proof.Gen.Kernel.Skeleton
import proofs.«135736_j29987461660874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x512 := Rect.unit (s := S1024x512) ![0, 0] S1024x512.size inb_S1024x512_S1024x512_0_0
abbrev r0_1 : Rect S256x512 := Rect.unit (s := S256x512) ![0, 0] S256x512.size inb_S256x512_S256x512_0_0
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0
abbrev r0_4 : Rect S1x512 := Rect.unit (s := S1x512) ![0, 0] S1x512.size inb_S1x512_S1x512_0_0

/-- The output block after the body, from the input windows' blocks: its one store. -/
def out0_5 (x0 : Vec F S1024x512 .f32) (x1 : Vec F S256x512 .f32) (x2 : Vec F S1x256 .f32) (x3 : Vec F S512x256 .f32) (x4 : Vec F S1x512 .f32) : Vec F S1024x512 .f32 :=
  View.canon [⟨r0_0, k0_pay1 (View.ld x0 r0_0) (View.ld x1 r0_1) (View.ld x2 r0_2) (View.ld x3 r0_3) (View.ld x4 r0_4)⟩]

/-- The store covers the block. -/
theorem cover0_5 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-! ## The body's run -/

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S1x512 .f32) (harg5 : arg5.IsWhole) (arg6 : Memref sig .tc .vmem S1024x512 .f32) (harg6 : arg6.IsWhole)
    (x0 : Vec F S1024x512 .f32) (x1 : Vec F S256x512 .f32) (x2 : Vec F S1x256 .f32) (x3 : Vec F S512x256 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- The proof data of the region on core c: the arrays as the region finds them; after the body at point t each
    input's buffer at its block and the output's at the stored value; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
/-
  The row-sum region (the second kernel call): grid 8 × 4, one input window (a 1024 × 2048 block of the adjacency
  matrix at block (i, j)), one output window (the 1024 × 1 column of row sums of row block i, written back at j = 3
  only) and one scratch column carried between grid points. At j = 0 the scratch is reset to zero; at every j the lane
  sums of the block are added to it; at j = 3 it is copied to the output block.

  This module: the windows' blocks at the contents V the region is entered with, the two branch conditions in closed
  form over the grid, where the output window is idle, and the body's run in each of the three cases
  (j = 0; j = 1, 2; j = 3), the stores each buffer ends with found by the run itself.
-/
import proofs.«135736_j29987461660874_1_alg».proof.Proof.Gen.Kernel.Launch
import proofs.«135736_j29987461660874_1_alg».proof.Proof.Gen.Kernel.Skeleton
import proofs.«135736_j29987461660874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "j = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "j = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
/-- Away from j = 3 the output window is idle and is not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## The staging and scratch memrefs -/

abbrev VO1_1 : View sig .tc .vmem S1024x1 .f32 := (Memref.whole cc1_stg1_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
/-- The scratch column. -/
abbrev scM1 : Memref sig .tc .vmem S1024x1 .f32 := Memref.whole cc1_scratch0
abbrev VS1 : View sig .tc .vmem S1024x1 .f32 := scM1.view

/-- The class invariant with the scratch column split off the other scoped buffers. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-! ## The body's run, case by case -/

set_option maxHeartbeats 1000000 in
/-- Case j = 0: the scratch at anything; the body resets it, adds the block's lane sums, stores nothing into the output. -/
noncomputable def kernelRun1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x2048 .f32) :
    Σ' (L1 : List (View.Piece (Elt F) S1024x1 .f32)), { LS0 : List (View.Piece (Elt F) S1024x1 .f32) //
      ∀ (d1 : Vec F S1024x1 .f32) (E : Set ℕ) (K : PUnit → sProp 𝕄),
        iprop(owns (c : Thread nD τ) arg2 fullShare x0 ∗ owns (c : Thread nD τ) arg3 fullShare d1 ∗ (∃ d, owns (c : Thread nD τ) arg4 fullShare d)
            ∗ (iprop(owns (c : Thread nD τ) arg2 fullShare x0 ∗ owns (c : Thread nD τ) arg3 fullShare d1 ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun d1 E K => ?run⟩
  case run =>
    simp only [cc1__rowsum_kernel_eq_skeleton]; unfold cc1__rowsum_kernel_skel
    unfold owns
    iintro ⟨⟨%f0, %hf0, H0⟩, ⟨%f1, %hf1, H1⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]
    · iexists _; isplitr; · ipureintro; exact hf1
      iexact H1
    iexists _; iexact HS0

set_option maxHeartbeats 1000000 in
/-- Case j = 1, 2: the scratch at what the point before left; the body adds the block's lane sums. -/
noncomputable def kernelRun1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x2048 .f32) (xs0 : Vec F S1024x1 .f32) :
    Σ' (L1 : List (View.Piece (Elt F) S1024x1 .f32)), { LS0 : List (View.Piece (Elt F) S1024x1 .f32) //
      ∀ (d1 : Vec F S1024x1 .f32) (E : Set ℕ) (K : PUnit → sProp 𝕄),
        iprop(owns (c : Thread nD τ) arg2 fullShare x0 ∗ owns (c : Thread nD τ) arg3 fullShare d1 ∗ owns (c : Thread nD τ) arg4 fullShare xs0
            ∗ (iprop(owns (c : Thread nD τ) arg2 fullShare x0 ∗ owns (c : Thread nD τ) arg3 fullShare d1 ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun d1 E K => ?run⟩
  case run =>
    simp only [cc1__rowsum_kernel_eq_skeleton]; unfold cc1__rowsum_kernel_skel
    unfold owns
    iintro ⟨⟨%f0, %hf0, H0⟩, ⟨%f1, %hf1, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact hf1
      iexact H1
    iexists _; iexact HS0

set_option maxHeartbeats 1000000 in
/-- Case j = 3: the scratch at what the point before left; the body adds the block's lane sums and copies the scratch
    into the output block. -/
noncomputable def kernelRun1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨?_, ?_, fun E K => ?run⟩
  case run =>
    simp only [cc1__rowsum_kernel_eq_skeleton]; unfold cc1__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.Reg1.lean ====
/-
  The row-sum region, continued: what the scratch column and the output block hold after each grid point (by recursion
  on the point: at j = 0 the body's result from a reset scratch, at j > 0 its result from what the point before left),
  the region invariant that carries the scratch between points, the proof data, the body obligation by cases on j,
  and the invariant's entry and exit.
-/
import proofs.«135736_j29987461660874_1_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An idle output block: nothing stored, nothing consulted. -/
def idle1 : Vec F S1024x1 .f32 := VO1_1.read (Elt F) (VO1_1.writes (Elt F) VO1_1.junk [])

section Cases
variable (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)

theorem scover1_A (hc0 : cond1_0 i) (hc1 : ¬cond1_1 i) (x0 : Vec F S1024x2048 .f32) (y : S1024x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1024x1.size (by sl_kernel_rfl) y
/-- The scratch after a point with j = 0. -/
def sout1_A (hc0 : cond1_0 i) (hc1 : ¬cond1_1 i) (x0 : Vec F S1024x2048 .f32) : Vec F S1024x1 .f32 :=
  VS1.read (Elt F) (VS1.writes (Elt F) VS1.junk (kernelRun1_A c i arg2 harg2 arg3 harg3 arg4 harg4 hc0 hc1 x0).2.1)

theorem scover1_B (hc0 : ¬cond1_0 i) (hc1 : ¬cond1_1 i) (x0 : Vec F S1024x2048 .f32) (xs0 : Vec F S1024x1 .f32) (y : S1024x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1024x1.size (by sl_kernel_rfl) y
/-- The scratch after a point with j = 1, 2. -/
def sout1_B (hc0 : ¬cond1_0 i) (hc1 : ¬cond1_1 i) (x0 : Vec F S1024x2048 .f32) (xs0 : Vec F S1024x1 .f32) : Vec F S1024x1 .f32 :=
  VS1.read (Elt F) (VS1.writes (Elt F) VS1.junk (kernelRun1_B c i arg2 harg2 arg3 harg3 arg4 harg4 hc0 hc1 x0 xs0).2.1)

theorem cover1_C (hc0 : ¬cond1_0 i) (hc1 : cond1_1 i) (x0 : Vec F S1024x2048 .f32) (xs0 : Vec F S1024x1 .f32) (y : S1024x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1024x1.size (by sl_kernel_rfl) y
/-- The output block after a point with j = 3. -/
def out1_C (hc0 : ¬cond1_0 i) (hc1 : cond1_1 i) (x0 : Vec F S1024x2048 .f32) (xs0 : Vec F S1024x1 .f32) : Vec F S1024x1 .f32 :=
  VO1_1.read (Elt F) (VO1_1.writes (Elt F) VO1_1.junk (kernelRun1_C c i arg2 harg2 arg3 harg3 arg4 harg4 hc0 hc1 x0 xs0).1)
theorem scover1_C (hc0 : ¬cond1_0 i) (hc1 : cond1_1 i) (x0 : Vec F S1024x2048 .f32) (xs0 : Vec F S1024x1 .f32) (y : S1024x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1024x1.size (by sl_kernel_rfl) y
/-- The scratch after a point with j = 3. -/
def sout1_C (hc0 : ¬cond1_0 i) (hc1 : cond1_1 i) (x0 : Vec F S1024x2048 .f32) (xs0 : Vec F S1024x1 .f32) : Vec F S1024x1 .f32 :=
  VS1.read (Elt F) (VS1.writes (Elt F) VS1.junk (kernelRun1_C c i arg2 harg2 arg3 harg3 arg4 harg4 hc0 hc1 x0 xs0).2.1)

end Cases

/-! ## What the output block and the scratch hold after each point -/

/-- After position n: (the output block, the scratch). -/
def outsAt1 (c : Dev nD) : (n : ℕ) → n < cfg1.N → Vec F S1024x1 .f32 × Vec F S1024x1 .f32
  | 0, hn => (idle1, sout1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 4 = 0 then
      (idle1, sout1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (idle1, sout1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idle1, sout1_A c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idle1, sout1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other scoped buffers, untouched by this kernel. -/
abbrev Rest1 (c : Dev nD) : sProp 𝕄 :=
  Pipeline.scopedRestBut (Ix := Unit) (Name := ℕ) (U := UR sig nD τ) (Lvl := ℕ) (Val := Elt F) spec1 c [cc1_scratch0]

/-- Before position n: at the first point the class invariant (the scratch at anything); afterwards the scratch at what
    the point before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  by_cases h0 : t.val % 4 = 0
  · have h1 : ¬t.val % 4 = 3 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩⟩
      iapply ((kernelRun1_A c (grid1.coords t) _ _ _ _ _ _ ((hcond1_0 t).mpr h0) (fun h => h1 ((hcond1_1 t).mp h)) (iblk1 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _)
          iexact HR
        iexact Hg
      isplitl [Ho]; · iexact Ho
      isplitl [H0]; · iexact H0
      iexists _; iexact H1
    · rw [PhiS1_castSucc V c t, PhiS1_pos V c _ _ hz]
      iintro ⟨⟨⟨HS0, HR⟩, Hg⟩, Ho, ⟨%d0, H0⟩, ⟨%d1, H1⟩⟩
      iapply ((kernelRun1_A c (grid1.coords t) _ _ _ _ _ _ ((hcond1_0 t).mpr h0) (fun h => h1 ((hcond1_1 t).mp h)) (iblk1 V c 0 t)).2.2 _ Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _)
          iexact HR
        iexact Hg
      isplitl [Ho]; · iexact Ho
      isplitl [H0]; · iexact H0
      iexists _; iexact H1
  · have hz : t.val ≠ 0 := fun e => h0 (by rw [e])
    by_cases h1 : t.val % 4 = 3
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover1_C c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _)
          iexact HR
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-! ## Entering and leaving the invariant -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Cert.Kernel.Hand

end
-- ==== Proof.K.Reg2Runs.lean ====
/-
  The propagation region (the third kernel call): grid 8 × 4, point (i, j). Five input windows — the 1024 × 2048 block
  (i, j) of the adjacency matrix, the 2048 × 512 block j of the features h, the 1024 × 512 block i of h again (the two
  windows read ONE array), the 1024 × 1 block i of the scale as a column, the 1 × 2048 block j of the scale as a row —,
  one output window (block i of the result, written back at j = 3 only) and one 1024 × 512 scratch carried between
  grid points. At j = 0 the scratch is reset to zero; at every j the product of the column-scaled adjacency block with
  the feature block is added to it; at j = 3 the output block is stored: the row scale times the scratch plus the
  squared row scale times the row block of h.

  This module: the windows' blocks at the contents V the region is entered with, the two branch conditions in closed
  form over the grid, where the output window is idle, and the body's run in each of the three cases, the stores each
  buffer ends with found by the run itself. A case's run takes only the buffers that case touches.
-/
import proofs.«135736_j29987461660874_1_alg».proof.Proof.Gen.Kernel.Launch
import proofs.«135736_j29987461660874_1_alg».proof.Proof.Gen.Kernel.Skeleton
import proofs.«135736_j29987461660874_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- "j = 0", as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "j = 3". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from j = 3 the output window is idle and is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging and scratch memrefs -/

abbrev VO2_5 : View sig .tc .vmem S1024x512 .f32 := (Memref.whole cc2_stg5_0 : Memref sig .tc .vmem S1024x512 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
/-- The scratch accumulator. -/
abbrev scM2 : Memref sig .tc .vmem S1024x512 .f32 := Memref.whole cc2_scratch0
abbrev VS2 : View sig .tc .vmem S1024x512 .f32 := scM2.view

/-- The class invariant with the scratch accumulator split off the other scoped buffers. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

/-! ## The body's run, case by case -/

set_option maxHeartbeats 1000000 in
/-- Case j = 0: the scratch at anything; the body resets it and adds the block product. -/
noncomputable def kernelRun2_A (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : cond2_0 i) (hc1 : ¬cond2_1 i)
    (x0 : Vec F S1024x2048 .f32) (x1 : Vec F S2048x512 .f32) (x4 : Vec F S1x2048 .f32) :
    { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg6 fullShare x4 ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, fun E K => ?run⟩
  case run =>
    simp only [cc2__prop_kernel_eq_skeleton]; unfold cc2__prop_kernel_skel
    unfold owns
    iintro ⟨⟨%f0, %hf0, H0⟩, ⟨%f1, %hf1, H1⟩, ⟨%f4, %hf4, H4⟩, ⟨%ds0, %fs0, -, HS0⟩, Hk⟩
    obtain rfl := harg2.eq_unread hf0; obtain rfl := harg3.eq_unread hf1; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    iexists _; iexact HS0

set_option maxHeartbeats 1000000 in
/-- Case j = 1, 2: the scratch at what the point before left; the body adds the block product. -/
noncomputable def kernelRun2_B (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : ¬cond2_0 i) (hc1 : ¬cond2_1 i)
    (x0 : Vec F S1024x2048 .f32) (x1 : Vec F S2048x512 .f32) (x4 : Vec F S1x2048 .f32) (xs0 : Vec F S1024x512 .f32) :
    { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ owns (c : Thread nD τ) arg8 fullShare xs0
            ∗ (iprop(owns (c : Thread nD τ) arg2 fullShare x0 ∗ owns (c : Thread nD τ) arg3 fullShare x1 ∗ owns (c : Thread nD τ) arg6 fullShare x4 ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, fun E K => ?run⟩
  case run =>
    simp only [cc2__prop_kernel_eq_skeleton]; unfold cc2__prop_kernel_skel
    unfold owns
    iintro ⟨⟨%f0, %hf0, H0⟩, ⟨%f1, %hf1, H1⟩, ⟨%f4, %hf4, H4⟩, ⟨%fs0, %hfs0, HS0⟩, Hk⟩
    obtain rfl := harg2.eq_unread hf0; obtain rfl := harg3.eq_unread hf1; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    iexists _; iexact HS0

set_option maxHeartbeats 1000000 in
/-- Case j = 3: the scratch at what the point before left; the body adds the block product and stores the output block. -/
noncomputable def kernelRun2_C (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : ¬cond2_0 i) (hc1 : cond2_1 i)
    (x0 : Vec F S1024x2048 .f32) (x1 : Vec F S2048x512 .f32) (x2 : Vec F S1024x512 .f32) (x3 : Vec F S1024x1 .f32) (x4 : Vec F S1x2048 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, ?_, fun E K => ?run⟩
  case run =>
    simp only [cc2__prop_kernel_eq_skeleton]; unfold cc2__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Reg2.lean ====
/-
  The propagation region, continued: what the scratch accumulator and the output block hold after each grid point (by
  recursion on the point), the region invariant that carries the scratch between points, the proof data — the two
  windows on the feature array hold it at the two halves of the full share —, the body obligation by cases on j, and
  the invariant's entry and exit.
-/
import proofs.«135736_j29987461660874_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An idle output block: nothing stored, nothing consulted. -/
def idle2 : Vec F S1024x512 .f32 := VO2_5.read (Elt F) (VO2_5.writes (Elt F) VO2_5.junk [])

section Cases
variable (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)

theorem scover2_A (hc0 : cond2_0 i) (hc1 : ¬cond2_1 i) (x0 : Vec F S1024x2048 .f32) (x1 : Vec F S2048x512 .f32) (x4 : Vec F S1x2048 .f32) (y : S1024x512.Idx) :
    ∃ pc ∈ (kernelRun2_A c i arg2 harg2 arg3 harg3 arg4 harg4 arg5 harg5 arg6 harg6 arg7 harg7 arg8 harg8 hc0 hc1 x0 x1 x4).1, y ∈ pc.1.set :=
  View.cover_of_tiledL (kernelRun2_A c i arg2 harg2 arg3 harg3 arg4 harg4 arg5 harg5 arg6 harg6 arg7 harg7 arg8 harg8 hc0 hc1 x0 x1 x4).1 S1024x512.size (by sl_kernel_rfl) y
/-- The scratch after a point with j = 0. -/
def sout2_A (hc0 : cond2_0 i) (hc1 : ¬cond2_1 i) (x0 : Vec F S1024x2048 .f32) (x1 : Vec F S2048x512 .f32) (x4 : Vec F S1x2048 .f32) : Vec F S1024x512 .f32 :=
  VS2.read (Elt F) (VS2.writes (Elt F) VS2.junk (kernelRun2_A c i arg2 harg2 arg3 harg3 arg4 harg4 arg5 harg5 arg6 harg6 arg7 harg7 arg8 harg8 hc0 hc1 x0 x1 x4).1)

theorem scover2_B (hc0 : ¬cond2_0 i) (hc1 : ¬cond2_1 i) (x0 : Vec F S1024x2048 .f32) (x1 : Vec F S2048x512 .f32) (x4 : Vec F S1x2048 .f32) (xs0 : Vec F S1024x512 .f32) (y : S1024x512.Idx) :
    ∃ pc ∈ (kernelRun2_B c i arg2 harg2 arg3 harg3 arg4 harg4 arg5 harg5 arg6 harg6 arg7 harg7 arg8 harg8 hc0 hc1 x0 x1 x4 xs0).1, y ∈ pc.1.set :=
  View.cover_of_tiledL (kernelRun2_B c i arg2 harg2 arg3 harg3 arg4 harg4 arg5 harg5 arg6 harg6 arg7 harg7 arg8 harg8 hc0 hc1 x0 x1 x4 xs0).1 S1024x512.size (by sl_kernel_rfl) y
/-- The scratch after a point with j = 1, 2. -/
def sout2_B (hc0 : ¬cond2_0 i) (hc1 : ¬cond2_1 i) (x0 : Vec F S1024x2048 .f32) (x1 : Vec F S2048x512 .f32) (x4 : Vec F S1x2048 .f32) (xs0 : Vec F S1024x512 .f32) : Vec F S1024x512 .f32 :=
  VS2.read (Elt F) (VS2.writes (Elt F) VS2.junk (kernelRun2_B c i arg2 harg2 arg3 harg3 arg4 harg4 arg5 harg5 arg6 harg6 arg7 harg7 arg8 harg8 hc0 hc1 x0 x1 x4 xs0).1)

section C
variable (hc0 : ¬cond2_0 i) (hc1 : cond2_1 i) (x0 : Vec F S1024x2048 .f32) (x1 : Vec F S2048x512 .f32) (x2 : Vec F S1024x512 .f32) (x3 : Vec F S1024x1 .f32) (x4 : Vec F S1x2048 .f32) (xs0 : Vec F S1024x512 .f32)

theorem cover2_C (y : S1024x512.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x512.size (by sl_kernel_rfl) y
/-- The output block after a point with j = 3. -/
def out2_C : Vec F S1024x512 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)
theorem scover2_C (y : S1024x512.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x512.size (by sl_kernel_rfl) y
/-- The scratch after a point with j = 3. -/
def sout2_C : Vec F S1024x512 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)
end C

end Cases

/-! ## What the output block and the scratch hold after each point -/

/-- After position n: (the output block, the scratch). -/
def outsAt2 (c : Dev nD) : (n : ℕ) → n < cfg2.N → Vec F S1024x512 .f32 × Vec F S1024x512 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 4 ⟨0, hn⟩))
  | n + 1, hn =>
    if h0 : (n + 1) % 4 = 0 then
      (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (idle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 4 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other scoped buffers, untouched by this kernel. -/
abbrev Rest2 (c : Dev nD) : sProp 𝕄 :=
  Pipeline.scopedRestBut (Ix := Unit) (Name := ℕ) (U := UR sig nD τ) (Lvl := ℕ) (Val := Elt F) spec2 c [cc2_scratch0]

/-- Before position n: at the first point the class invariant (the scratch at anything); afterwards the scratch at what
    the point before left, the other scoped buffers, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The proof data -/

/-- The proof data of the region on core c. The two windows on the feature array hold it at the left and the right half of
    the full share; every other input array is held at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 4 t)).2 Set.univ _)
      isplitl [H0]; · iexact H0
      isplitl [H1]; · iexact H1
      isplitl [H4]; · iexact H4
      isplitl [HS0]; · iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 4 t)).2 Set.univ _)
      isplitl [H0]; · iexact H0
      isplitl [H1]; · iexact H1
      isplitl [H4]; · iexact H4
      isplitl [HS0]; · iexists _; iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 4 t) _).2 Set.univ _)
      isplitl [H0]; · iexact H0
      isplitl [H1]; · iexact H1
      isplitl [H4]; · iexact H4
      isplitl [HS0]; · iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation2 (c : Dev nD) : BodyObligation (dat2 (F := F) V c) (defs₀ (F := F)) Variants.none () Set.univ := fun t => by
  rw [bigSep_W2, bigSep_W2]
  exact sound_body2 V c t

/-! ## Entering and leaving the invariant -/

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HR⟩, Hg⟩
  isplitl [HS0 HR]
  · isplitl [HS0]
    · iexists _; iexact HS0
    iexact HR
  iexact Hg

end Cert.Kernel.Hand

end
-- ==== Proof.K.Share2.lean ====
/-
  The propagation region's arrays. Its six windows sit on FIVE buffers: the adjacency matrix, the features (read by two
  windows, at the left and the right half of the full share), the scale as a column, the scale as a row, and the
  result. The five buffers, each whole at the full share at contents X, are the same resource as the six windows'
  arrays at contents F whenever F w is X at window w's buffer: the features' points-to split in two halves, the others
  as they are.
-/
import proofs.«135736_j29987461660874_1_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The shares, by evaluation -/

theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl

/-- The buffers behind the windows' arrays, without repetition. -/
theorem arrRefs2 : Finset.univ.image (Pipeline.arrRef spec2) = ({main_arg1, main_v2, main_v9, main_v10, main_v11} : Finset (Ref sig .tc)) := by decide

section
variable (c : Dev nD) (X : (b : Ref sig .tc) → Buf (Elt F) ((c : Thread nD τ).loc b))
  (Fw : (w : Fin cfg2.W) → Buf (Elt F) ((cfg2.win w).arr.view.loc (c.tc : Thread nD τ)))
  (hF : ∀ w, Fw w = X (Pipeline.arrRef spec2 w))

include hF in
/-- One window's array, whole, at its share, as a points-to of the buffer behind it. -/
theorem arr2_eq (w : Fin cfg2.W) (q : PosShare TreeShare) (hq : (dat2 V c).share w = q) :
    (((cfg2.win w).arr.view.loc (c.tc : Thread nD τ) ↦[(cfg2.win w).arr.view.set]{(dat2 V c).share w} Fw w) : sProp 𝕄)
      = (((c.tc : Thread nD τ).loc (Pipeline.arrRef spec2 w)) ↦{q} X (Pipeline.arrRef spec2 w)) := by
  rw [(arr_whole2 w).set_eq_univ, hq, hF w]

/-- The six windows' arrays, spelt out over the five buffers. -/
def Arr2 : sProp 𝕄 :=
  iprop((((c.tc : Thread nD τ).loc main_arg1) ↦{fullShare} X main_arg1)
    ∗ (((c.tc : Thread nD τ).loc main_v2) ↦{fullShare.left} X main_v2)
    ∗ (((c.tc : Thread nD τ).loc main_v2) ↦{fullShare.right} X main_v2)
    ∗ (((c.tc : Thread nD τ).loc main_v9) ↦{fullShare} X main_v9)
    ∗ (((c.tc : Thread nD τ).loc main_v10) ↦{fullShare} X main_v10)
    ∗ (((c.tc : Thread nD τ).loc main_v11) ↦{fullShare} X main_v11))

include hF in
theorem arrays2_eq : ((dat2 V c).arrays Fw : sProp 𝕄) = Arr2 c X := by
  unfold Dat.arrays Arr2
  rw [bigSep_W2, arr2_eq V c X Fw hF 0 _ (share2_0 V c), arr2_eq V c X Fw hF 1 _ (share2_1 V c), arr2_eq V c X Fw hF 2 _ (share2_2 V c),
    arr2_eq V c X Fw hF 3 _ (share2_3 V c), arr2_eq V c X Fw hF 4 _ (share2_4 V c), arr2_eq V c X Fw hF 5 _ (share2_5 V c)]

/-- The five buffers whole at the full share. -/
theorem arrBufs2_eq : (Pipeline.arrBufs spec2 c X : sProp 𝕄)
    = iprop((((c.tc : Thread nD τ).loc main_arg1) ↦{fullShare} X main_arg1)
      ∗ (((c.tc : Thread nD τ).loc main_v2) ↦{fullShare} X main_v2)
      ∗ (((c.tc : Thread nD τ).loc main_v9) ↦{fullShare} X main_v9)
      ∗ (((c.tc : Thread nD τ).loc main_v10) ↦{fullShare} X main_v10)
      ∗ (((c.tc : Thread nD τ).loc main_v11) ↦{fullShare} X main_v11)) := by
  unfold Pipeline.arrBufs
  rw [arrRefs2, bigSep_insert (by decide), bigSep_insert (by decide), bigSep_insert (by decide), bigSep_insert (by decide), bigSep_singleton]
  rfl

include hF in
/-- Entry: the five buffers make the six windows' arrays. -/
theorem arrays2_of_bufs : (Pipeline.arrBufs spec2 c X : sProp 𝕄) ⊢ (dat2 V c).arrays Fw := by
  rw [arrays2_eq V c X Fw hF, arrBufs2_eq]; unfold Arr2
  iintro ⟨H1, H2, H9, H10, H11⟩
  ihave H2' := (pointsTo_share (PosShare.mem_left_op_right fullShare)).1 $$ H2
  icases H2' with ⟨H2l, H2r⟩
  isplitl [H1]; · iexact H1
  isplitl [H2l]; · iexact H2l
  isplitl [H2r]; · iexact H2r
  isplitl [H9]; · iexact H9
  isplitl [H10]; · iexact H10
  iexact H11

include hF in
/-- Exit: the six windows' arrays make the five buffers. -/
theorem bufs_of_arrays2 : ((dat2 V c).arrays Fw : sProp 𝕄) ⊢ Pipeline.arrBufs spec2 c X := by
  rw [arrays2_eq V c X Fw hF, arrBufs2_eq]; unfold Arr2
  iintro ⟨H1, H2l, H2r, H9, H10, H11⟩
  isplitl [H1]; · iexact H1
  isplitl [H2l H2r]
  · iapply (pointsTo_share (PosShare.mem_left_op_right fullShare)).2
    isplitl [H2l]; · iexact H2l
    iexact H2r
  isplitl [H9]; · iexact H9
  isplitl [H10]; · iexact H10
  iexact H11

end

end Cert.Kernel.Hand

end
-- ==== Proof.K.Run.lean ====
/-
  The whole program: two host reshapes, the projection region, the row-sum region, the host lines that turn the row sums
  into the scale (add one, power −1/2, replace an infinite value by zero, and the same column viewed as a row), the
  propagation region. The contents of every unscoped buffer at each boundary are a fold from the launch memory: a host
  stretch applies its operations, a region replaces its output array by what its write-backs leave. Each region is a
  record around the thread state "every unscoped buffer at the boundary's contents, the generator register, nothing
  owed"; the run composes the records and reads the last boundary's contents off the final memory: the result array
  is what the propagation region's write-backs leave, and no argument was ever written.
-/
import proofs.«135736_j29987461660874_1_alg».proof.Proof.K.Reg0
import proofs.«135736_j29987461660874_1_alg».proof.Proof.K.Reg1
import proofs.«135736_j29987461660874_1_alg».proof.Proof.K.Share2
import proofs.«135736_j29987461660874_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the row-sum region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After each of the five host stretches that make the scale. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev V8 : (c : Dev nD) → (b : Ref sig .tc) → Buf (Elt F) ((c : Thread nD τ).loc b) := fun c b => W8 m ρ c b

/-- After the propagation region: the result array at what its write-backs leave, every other buffer as entered (its
    other arrays are inputs, never written). -/
def W9 (c : Dev nD) : Valuation τ sig (Elt F) :=
  Function.update (W8 m ρ c) (Proc.devRef .tc main_v11) ((dat2 (V8 m ρ) c).arrAt 5 cfg2.N)
abbrev V9 : (c : Dev nD) → (b : Ref sig .tc) → Buf (Elt F) ((c : Thread nD τ).loc b) := fun c b => W9 m ρ c b
theorem W9_main_v11 (c : Dev nD) : W9 m ρ c (Proc.devRef .tc main_v11) = (dat2 (V8 m ρ) c).arrAt 5 cfg2.N := by
  unfold W9; exact Function.update_self _ _ _
theorem W9_of_ne (c : Dev nD) (b : Ref sig .tc) (hb : b ≠ main_v11) :
    W9 m ρ c (Proc.devRef .tc b) = W8 m ρ c (Proc.devRef .tc b) := by
  unfold W9; exact Function.update_of_ne (StableHlo.devRef_ne_of_ne hb) _ _

/-! ## No argument is ever written -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps2_4 _ hostOps2_4_writes (by decide)
    _ = W6 m ρ c (Proc.devRef .tc main_arg0) := StableHlo.after_of_writes_sub hostOps2_3 _ hostOps2_3_writes (by decide)
    _ = W5 m ρ c (Proc.devRef .tc main_arg0) := StableHlo.after_of_writes_sub hostOps2_2 _ hostOps2_2_writes (by decide)
    _ = W4 m ρ c (Proc.devRef .tc main_arg0) := StableHlo.after_of_writes_sub hostOps2_1 _ hostOps2_1_writes (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps2_4 _ hostOps2_4_writes (by decide)
    _ = W6 m ρ c (Proc.devRef .tc main_arg1) := StableHlo.after_of_writes_sub hostOps2_3 _ hostOps2_3_writes (by decide)
    _ = W5 m ρ c (Proc.devRef .tc main_arg1) := StableHlo.after_of_writes_sub hostOps2_2 _ hostOps2_2_writes (by decide)
    _ = W4 m ρ c (Proc.devRef .tc main_arg1) := StableHlo.after_of_writes_sub hostOps2_1 _ hostOps2_1_writes (by decide)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps2_4 _ hostOps2_4_writes (by decide)
    _ = W6 m ρ c (Proc.devRef .tc main_arg2) := StableHlo.after_of_writes_sub hostOps2_3 _ hostOps2_3_writes (by decide)
    _ = W5 m ρ c (Proc.devRef .tc main_arg2) := StableHlo.after_of_writes_sub hostOps2_2 _ hostOps2_2_writes (by decide)
    _ = W4 m ρ c (Proc.devRef .tc main_arg2) := StableHlo.after_of_writes_sub hostOps2_1 _ hostOps2_1_writes (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps2_4 _ hostOps2_4_writes (by decide)
    _ = W6 m ρ c (Proc.devRef .tc main_arg3) := StableHlo.after_of_writes_sub hostOps2_3 _ hostOps2_3_writes (by decide)
    _ = W5 m ρ c (Proc.devRef .tc main_arg3) := StableHlo.after_of_writes_sub hostOps2_2 _ hostOps2_2_writes (by decide)
    _ = W4 m ρ c (Proc.devRef .tc main_arg3) := StableHlo.after_of_writes_sub hostOps2_1 _ hostOps2_1_writes (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps2_4 _ hostOps2_4_writes (by decide)
    _ = W6 m ρ c (Proc.devRef .tc main_arg4) := StableHlo.after_of_writes_sub hostOps2_3 _ hostOps2_3_writes (by decide)
    _ = W5 m ρ c (Proc.devRef .tc main_arg4) := StableHlo.after_of_writes_sub hostOps2_2 _ hostOps2_2_writes (by decide)
    _ = W4 m ρ c (Proc.devRef .tc main_arg4) := StableHlo.after_of_writes_sub hostOps2_1 _ hostOps2_1_writes (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps2_4 _ hostOps2_4_writes (by decide)
    _ = W6 m ρ c (Proc.devRef .tc main_arg5) := StableHlo.after_of_writes_sub hostOps2_3 _ hostOps2_3_writes (by decide)
    _ = W5 m ρ c (Proc.devRef .tc main_arg5) := StableHlo.after_of_writes_sub hostOps2_2 _ hostOps2_2_writes (by decide)
    _ = W4 m ρ c (Proc.devRef .tc main_arg5) := StableHlo.after_of_writes_sub hostOps2_1 _ hostOps2_1_writes (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The propagation region: its arrays dealt by hand (two windows on one buffer) -/

theorem unsc2 : ∀ w, (Pipeline.arrRef spec2 w).isScoped = false := by decide

/-- Entry: every unscoped buffer at the boundary's contents is the region's arrays at their entry contents and the rest. -/
theorem entry2 (c : Dev nD) :
    (StableHlo.held (c : Thread nD τ) (Pipeline.ucRefs τ sig) (W8 m ρ c) : sProp 𝕄)
      ⊢ iprop((dat2 (V8 m ρ) c).arrays ((dat2 (V8 m ρ) c).arrAt · 0) ∗ Pipeline.unscopedRest (Ix := Unit) (Name := ℕ) (U := UR sig nD τ) (Lvl := ℕ) spec2 c (V8 m ρ c)) := by
  rw [← Pipeline.unscopedBufs_held (Ix := Unit) (Name := ℕ) (U := UR sig nD τ) (Lvl := ℕ) c (W8 m ρ c),
    Pipeline.unscopedBufs_split₀ cfgs 2 unsc2 c (V8 m ρ c)]
  exact sep_mono (arrays2_of_bufs (V8 m ρ) c (V8 m ρ c) _ fun w => A_eq2 (V8 m ρ) c w) .rfl

/-- What the region's arrays hold at its exit is the next boundary's contents at their buffers. -/
theorem hF2 (c : Dev nD) (w : Fin cfg2.W) : (dat2 (V8 m ρ) c).arrAt w cfg2.N = V9 m ρ c (Pipeline.arrRef spec2 w) := by
  match w with
  | ⟨0, _⟩ => exact (((dat2 (V8 m ρ) c).arrAt_in 0 rfl _).trans (A_eq2 (V8 m ρ) c 0)).trans (W9_of_ne m ρ c _ (by decide)).symm
  | ⟨1, _⟩ => exact (((dat2 (V8 m ρ) c).arrAt_in 1 rfl _).trans (A_eq2 (V8 m ρ) c 1)).trans (W9_of_ne m ρ c _ (by decide)).symm
  | ⟨2, _⟩ => exact (((dat2 (V8 m ρ) c).arrAt_in 2 rfl _).trans (A_eq2 (V8 m ρ) c 2)).trans (W9_of_ne m ρ c _ (by decide)).symm
  | ⟨3, _⟩ => exact (((dat2 (V8 m ρ) c).arrAt_in 3 rfl _).trans (A_eq2 (V8 m ρ) c 3)).trans (W9_of_ne m ρ c _ (by decide)).symm
  | ⟨4, _⟩ => exact (((dat2 (V8 m ρ) c).arrAt_in 4 rfl _).trans (A_eq2 (V8 m ρ) c 4)).trans (W9_of_ne m ρ c _ (by decide)).symm
  | ⟨5, _⟩ => exact (W9_main_v11 m ρ c).symm

/-- Exit: the region's arrays at their exit contents and the rest are every unscoped buffer at the next boundary's contents. -/
theorem exit2 (c : Dev nD) :
    iprop((dat2 (V8 m ρ) c).arrays ((dat2 (V8 m ρ) c).arrAt · cfg2.N) ∗ Pipeline.unscopedRest (Ix := Unit) (Name := ℕ) (U := UR sig nD τ) (Lvl := ℕ) spec2 c (V8 m ρ c))
      ⊢ (StableHlo.held (c : Thread nD τ) (Pipeline.ucRefs τ sig) (W9 m ρ c) : sProp 𝕄) := by
  rw [← Pipeline.unscopedBufs_held (Ix := Unit) (Name := ℕ) (U := UR sig nD τ) (Lvl := ℕ) c (W9 m ρ c),
    Pipeline.unscopedBufs_split₀ cfgs 2 unsc2 c (V9 m ρ c)]
  refine sep_mono (bufs_of_arrays2 (V8 m ρ) c (V9 m ρ c) _ (hF2 m ρ c)) (Entails.of_eq ?_)
  unfold Pipeline.unscopedRest
  refine bigSep_congr fun b hb => ?_
  have hb' : b ≠ main_v11 := fun e => (Finset.mem_sdiff.mp hb).2 (Finset.mem_image.mpr ⟨5, Finset.mem_univ _, e ▸ rfl⟩)
  rw [show V9 m ρ c b = V8 m ρ c b from W9_of_ne m ρ c b hb']

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
          ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (V8 m ρ) c)
  hout c := by
    refine (hout2 (V8 m ρ) c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · have hx : iprop((pdats m ρ 2 c).arrays ((pdats m ρ 2 c).arrAt · cfg2.N)
              ∗ Pipeline.unscopedRest (Ix := Unit) (Name := ℕ) (U := UR sig nD τ) (Lvl := ℕ) spec2 c (V8 m ρ c))
            ⊢ (StableHlo.held (c : Thread nD τ) (Pipeline.ucRefs τ sig) (W9 m ρ c) : sProp 𝕄) := exit2 m ρ c
        iapply hx; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from memory m with zero counters terminates, faulting nowhere, with the
    result array at what the propagation region's write-backs leave and every argument array as launched. -/
theorem run_main : θ_run defs (onTc (τ := τ) (main (F := F))) ⟨m, fun _ => 0, ρ⟩ (fun r => ∀ c : Dev nD,
      r.2.mem ((c.tc : Thread nD τ).loc main_v11) = (dat2 (V8 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v11 (by decide))).trans (W9_main_v11 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.KI.Reg0.lean ====
/-
  The dense-projection region (the first kernel call): grid of 8 points, point i handling rows 1024·i … 1024·i + 1023.
  Five input windows — the block of x, and W1, b1 (as a row), W2, b2 (as a row) whole — and one output window, the
  block of h = (x·W1ᵀ + b1)·W2ᵀ + b2, stored whole by one store and written back at every point.

  This module: each window's block at the contents V the region is entered with, the output block after the body as
  the one store over the body's payload, the body's run, the proof data and the body obligation.
-/
import proofs.«135736_j29987461660874_1_alg».proof.Proof.Gen.KernelIdeal.Launch
import proofs.«135736_j29987461660874_1_alg».proof.Proof.Gen.KernelIdeal.Skeleton
import proofs.«135736_j29987461660874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x512 := Rect.unit (s := S1024x512) ![0, 0] S1024x512.size inb_S1024x512_S1024x512_0_0
abbrev r0_1 : Rect S256x512 := Rect.unit (s := S256x512) ![0, 0] S256x512.size inb_S256x512_S256x512_0_0
abbrev r0_2 : Rect S1x256 := Rect.unit (s := S1x256) ![0, 0] S1x256.size inb_S1x256_S1x256_0_0
abbrev r0_3 : Rect S512x256 := Rect.unit (s := S512x256) ![0, 0] S512x256.size inb_S512x256_S512x256_0_0
abbrev r0_4 : Rect S1x512 := Rect.unit (s := S1x512) ![0, 0] S1x512.size inb_S1x512_S1x512_0_0

/-- The output block after the body, from the input windows' blocks: its one store. -/
def out0_5 (x0 : Vec F S1024x512 .f32) (x1 : Vec F S256x512 .f32) (x2 : Vec F S1x256 .f32) (x3 : Vec F S512x256 .f32) (x4 : Vec F S1x512 .f32) : Vec F S1024x512 .f32 :=
  View.canon [⟨r0_0, k0_pay1 (View.ld x0 r0_0) (View.ld x1 r0_1) (View.ld x2 r0_2) (View.ld x3 r0_3) (View.ld x4 r0_4)⟩]

/-- The store covers the block. -/
theorem cover0_5 (p0 : Vec F S1024x512 .f32) (y : S1024x512.Idx) :
    ∃ pc ∈ ([⟨r0_0, p0⟩] : List (View.Piece (Elt F) S1024x512 .f32)), y ∈ pc.1.set :=
  View.cover_of_tiled [⟨r0_0, p0⟩] S1024x512.size (by rfl) y

/-! ## The body's run -/

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S256x512 .f32) (harg2 : arg2.IsWhole)
    (arg3 : Memref sig .tc .vmem S1x256 .f32) (harg3 : arg3.IsWhole) (arg4 : Memref sig .tc .vmem S512x256 .f32) (harg4 : arg4.IsWhole)
    (arg5 : Memref sig .tc .vmem S1x512 .f32) (harg5 : arg5.IsWhole) (arg6 : Memref sig .tc .vmem S1024x512 .f32) (harg6 : arg6.IsWhole)
    (x0 : Vec F S1024x512 .f32) (x1 : Vec F S256x512 .f32) (x2 : Vec F S1x256 .f32) (x3 : Vec F S512x256 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data -/

/-- The proof data of the region on core c: the arrays as the region finds them; after the body at point t each
    input's buffer at its block and the output's at the stored value; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
/-
  The row-sum region (the second kernel call): grid 8 × 4, one input window (a 1024 × 2048 block of the adjacency
  matrix at block (i, j)), one output window (the 1024 × 1 column of row sums of row block i, written back at j = 3
  only) and one scratch column carried between grid points. At j = 0 the scratch is reset to zero; at every j the lane
  sums of the block are added to it; at j = 3 it is copied to the output block.

  This module: the windows' blocks at the contents V the region is entered with, the two branch conditions in closed
  form over the grid, where the output window is idle, and the body's run in each of the three cases
  (j = 0; j = 1, 2; j = 3), the stores each buffer ends with found by the run itself.
-/
import proofs.«135736_j29987461660874_1_alg».proof.Proof.Gen.KernelIdeal.Launch
import proofs.«135736_j29987461660874_1_alg».proof.Proof.Gen.KernelIdeal.Skeleton
import proofs.«135736_j29987461660874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's and
    whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "j = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "j = 3". -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
/-- Away from j = 3 the output window is idle and is not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-! ## The staging and scratch memrefs -/

abbrev VO1_1 : View sig .tc .vmem S1024x1 .f32 := (Memref.whole cc1_stg1_0 : Memref sig .tc .vmem S1024x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
/-- The scratch column. -/
abbrev scM1 : Memref sig .tc .vmem S1024x1 .f32 := Memref.whole cc1_scratch0
abbrev VS1 : View sig .tc .vmem S1024x1 .f32 := scM1.view

/-- The class invariant with the scratch column split off the other scoped buffers. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-! ## The body's run, case by case -/

set_option maxHeartbeats 1000000 in
/-- Case j = 0: the scratch at anything; the body resets it, adds the block's lane sums, stores nothing into the output. -/
noncomputable def kernelRun1_A (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : cond1_0 i) (hc1 : ¬cond1_1 i)
    (x0 : Vec F S1024x2048 .f32) :
    Σ' (L1 : List (View.Piece (Elt F) S1024x1 .f32)), { LS0 : List (View.Piece (Elt F) S1024x1 .f32) //
      ∀ (d1 : Vec F S1024x1 .f32) (E : Set ℕ) (K : PUnit → sProp 𝕄),
        iprop(owns (c : Thread nD τ) arg2 fullShare x0 ∗ owns (c : Thread nD τ) arg3 fullShare d1 ∗ (∃ d, owns (c : Thread nD τ) arg4 fullShare d)
            ∗ (iprop(owns (c : Thread nD τ) arg2 fullShare x0 ∗ owns (c : Thread nD τ) arg3 fullShare d1 ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun d1 E K => ?run⟩
  case run =>
    simp only [cc1__rowsum_kernel_eq_skeleton]; unfold cc1__rowsum_kernel_skel
    unfold owns
    iintro ⟨⟨%f0, %hf0, H0⟩, ⟨%f1, %hf1, H1⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [H1]
    · iexists _; isplitr; · ipureintro; exact hf1
      iexact H1
    iexists _; iexact HS0

set_option maxHeartbeats 1000000 in
/-- Case j = 1, 2: the scratch at what the point before left; the body adds the block's lane sums. -/
noncomputable def kernelRun1_B (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : ¬cond1_1 i)
    (x0 : Vec F S1024x2048 .f32) (xs0 : Vec F S1024x1 .f32) :
    Σ' (L1 : List (View.Piece (Elt F) S1024x1 .f32)), { LS0 : List (View.Piece (Elt F) S1024x1 .f32) //
      ∀ (d1 : Vec F S1024x1 .f32) (E : Set ℕ) (K : PUnit → sProp 𝕄),
        iprop(owns (c : Thread nD τ) arg2 fullShare x0 ∗ owns (c : Thread nD τ) arg3 fullShare d1 ∗ owns (c : Thread nD τ) arg4 fullShare xs0
            ∗ (iprop(owns (c : Thread nD τ) arg2 fullShare x0 ∗ owns (c : Thread nD τ) arg3 fullShare d1 ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨[], ?_, fun d1 E K => ?run⟩
  case run =>
    simp only [cc1__rowsum_kernel_eq_skeleton]; unfold cc1__rowsum_kernel_skel
    unfold owns
    iintro ⟨⟨%f0, %hf0, H0⟩, ⟨%f1, %hf1, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact hf1
      iexact H1
    iexists _; iexact HS0

set_option maxHeartbeats 1000000 in
/-- Case j = 3: the scratch at what the point before left; the body adds the block's lane sums and copies the scratch
    into the output block. -/
noncomputable def kernelRun1_C (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole) (hc0 : ¬cond1_0 i) (hc1 : cond1_1 i)
    (x0 : Vec F S1024x2048 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__rowsum_kernel i arg2 harg2 arg3 harg3 arg4 harg4) K } := by
  refine ⟨?_, ?_, fun E K => ?run⟩
  case run =>
    simp only [cc1__rowsum_kernel_eq_skeleton]; unfold cc1__rowsum_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.Reg1.lean ====
/-
  The row-sum region, continued: what the scratch column and the output block hold after each grid point (by recursion
  on the point: at j = 0 the body's result from a reset scratch, at j > 0 its result from what the point before left),
  the region invariant that carries the scratch between points, the proof data, the body obligation by cases on j,
  and the invariant's entry and exit.
-/
import proofs.«135736_j29987461660874_1_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An idle output block: nothing stored, nothing consulted. -/
def idle1 : Vec F S1024x1 .f32 := VO1_1.read (Elt F) (VO1_1.writes (Elt F) VO1_1.junk [])

section Cases
variable (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)

theorem scover1_A (hc0 : cond1_0 i) (hc1 : ¬cond1_1 i) (x0 : Vec F S1024x2048 .f32) (y : S1024x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1024x1.size (by sl_kernel_rfl) y
/-- The scratch after a point with j = 0. -/
def sout1_A (hc0 : cond1_0 i) (hc1 : ¬cond1_1 i) (x0 : Vec F S1024x2048 .f32) : Vec F S1024x1 .f32 :=
  VS1.read (Elt F) (VS1.writes (Elt F) VS1.junk (kernelRun1_A c i arg2 harg2 arg3 harg3 arg4 harg4 hc0 hc1 x0).2.1)

theorem scover1_B (hc0 : ¬cond1_0 i) (hc1 : ¬cond1_1 i) (x0 : Vec F S1024x2048 .f32) (xs0 : Vec F S1024x1 .f32) (y : S1024x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1024x1.size (by sl_kernel_rfl) y
/-- The scratch after a point with j = 1, 2. -/
def sout1_B (hc0 : ¬cond1_0 i) (hc1 : ¬cond1_1 i) (x0 : Vec F S1024x2048 .f32) (xs0 : Vec F S1024x1 .f32) : Vec F S1024x1 .f32 :=
  VS1.read (Elt F) (VS1.writes (Elt F) VS1.junk (kernelRun1_B c i arg2 harg2 arg3 harg3 arg4 harg4 hc0 hc1 x0 xs0).2.1)

theorem cover1_C (hc0 : ¬cond1_0 i) (hc1 : cond1_1 i) (x0 : Vec F S1024x2048 .f32) (xs0 : Vec F S1024x1 .f32) (y : S1024x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1024x1.size (by sl_kernel_rfl) y
/-- The output block after a point with j = 3. -/
def out1_C (hc0 : ¬cond1_0 i) (hc1 : cond1_1 i) (x0 : Vec F S1024x2048 .f32) (xs0 : Vec F S1024x1 .f32) : Vec F S1024x1 .f32 :=
  VO1_1.read (Elt F) (VO1_1.writes (Elt F) VO1_1.junk (kernelRun1_C c i arg2 harg2 arg3 harg3 arg4 harg4 hc0 hc1 x0 xs0).1)
theorem scover1_C (hc0 : ¬cond1_0 i) (hc1 : cond1_1 i) (x0 : Vec F S1024x2048 .f32) (xs0 : Vec F S1024x1 .f32) (y : S1024x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1024x1.size (by sl_kernel_rfl) y
/-- The scratch after a point with j = 3. -/
def sout1_C (hc0 : ¬cond1_0 i) (hc1 : cond1_1 i) (x0 : Vec F S1024x2048 .f32) (xs0 : Vec F S1024x1 .f32) : Vec F S1024x1 .f32 :=
  VS1.read (Elt F) (VS1.writes (Elt F) VS1.junk (kernelRun1_C c i arg2 harg2 arg3 harg3 arg4 harg4 hc0 hc1 x0 xs0).2.1)

end Cases

/-! ## What the output block and the scratch hold after each point -/

/-- After position n: (the output block, the scratch). -/
def outsAt1 (c : Dev nD) : (n : ℕ) → n < cfg1.N → Vec F S1024x1 .f32 × Vec F S1024x1 .f32
  | 0, hn => (idle1, sout1_A c (grid1.coords ⟨0, hn⟩) (ms1_0 ⟨0, hn⟩) (hs1_0 ⟨0, hn⟩) (ms1_1 ⟨0, hn⟩) (hs1_1 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 4 = 0 then
      (idle1, sout1_A c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (idle1, sout1_B c (grid1.coords ⟨n + 1, hn⟩) (ms1_0 ⟨n + 1, hn⟩) (hs1_0 ⟨n + 1, hn⟩) (ms1_1 ⟨n + 1, hn⟩) (hs1_1 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (idle1, sout1_A c (grid1.coords t) (ms1_0 t) (hs1_0 t) (ms1_1 t) (hs1_1 t) scM1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans rfl

theorem outsAt1_B (c : Dev nD) (t : Fin cfg1.N) (h0 : ¬t.val % 4 = 0) (h1 : ¬t.val % 4 = 3) :
    outsAt1 V c t.val t.isLt = (idle1, sout1_B c (grid1.coords t) (ms1_0 t) (hs1_0 t) (ms1_1 t) (hs1_1 t) scM1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2,
      sout1_C c (grid1.coords t) (ms1_0 t) (hs1_0 t) (ms1_1 t) (hs1_1 t) scM1 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other scoped buffers, untouched by this kernel. -/
abbrev Rest1 (c : Dev nD) : sProp 𝕄 :=
  Pipeline.scopedRestBut (Ix := Unit) (Name := ℕ) (U := UR sig nD τ) (Lvl := ℕ) (Val := Elt F) spec1 c [cc1_scratch0]

/-- Before position n: at the first point the class invariant (the scratch at anything); afterwards the scratch at what
    the point before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  by_cases h0 : t.val % 4 = 0
  · have h1 : ¬t.val % 4 = 3 := by omega
    rw [Dat.leavesExact_idle (dat1 V c) 1 t (idleAt1_1 t (fun h => h1 ((hcond1_1 t).mp h))) (noFlush1_1 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩⟩
      iapply ((kernelRun1_A c (grid1.coords t) _ _ _ _ _ _ ((hcond1_0 t).mpr h0) (fun h => h1 ((hcond1_1 t).mp h)) (iblk1 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _)
          iexact HR
        iexact Hg
      isplitl [Ho]; · iexact Ho
      isplitl [H0]; · iexact H0
      iexists _; iexact H1
    · rw [PhiS1_castSucc V c t, PhiS1_pos V c _ _ hz]
      iintro ⟨⟨⟨HS0, HR⟩, Hg⟩, Ho, ⟨%d0, H0⟩, ⟨%d1, H1⟩⟩
      iapply ((kernelRun1_A c (grid1.coords t) _ _ _ _ _ _ ((hcond1_0 t).mpr h0) (fun h => h1 ((hcond1_1 t).mp h)) (iblk1 V c 0 t)).2.2 _ Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _)
          iexact HR
        iexact Hg
      isplitl [Ho]; · iexact Ho
      isplitl [H0]; · iexact H0
      iexists _; iexact H1
  · have hz : t.val ≠ 0 := fun e => h0 (by rw [e])
    by_cases h1 : t.val % 4 = 3
    · rw [show (dat1 V c).leavesExact 1 t = owns (c : Thread nD τ) (ms1_1 t) fullShare ((dat1 V c).after 1 t) from by
        unfold Dat.leavesExact; rw [liveAt1_1 t ((hcond1_1 t).mpr h1)], after1_1]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩⟩
      iapply ((kernelRun1_C c (grid1.coords t) _ _ _ _ _ _ (fun h => h0 ((hcond1_0 t).mp h)) ((hcond1_1 t).mpr h1) (iblk1 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (cover1_C c _ _ _ _ _ _ _ _ _ _ _)
    · rw [Dat.leavesExact_idle (dat1 V c) 1 t (idleAt1_1 t (fun h => h1 ((hcond1_1 t).mp h))) (noFlush1_1 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩⟩
      iapply ((kernelRun1_B c (grid1.coords t) _ _ _ _ _ _ (fun h => h0 ((hcond1_0 t).mp h)) (fun h => h1 ((hcond1_1 t).mp h)) (iblk1 V c 0 t) _).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _)
          iexact HR
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-! ## Entering and leaving the invariant -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HR⟩, Hg⟩
  isplitl [HS0 HR]
  · isplitl [HS0]
    · iexists _; iexact HS0
    iexact HR
  iexact Hg

end Cert.KernelIdeal.Hand

end
-- ==== Proof.KI.Reg2Runs.lean ====
/-
  The propagation region (the third kernel call): grid 8 × 4, point (i, j). Five input windows — the 1024 × 2048 block
  (i, j) of the adjacency matrix, the 2048 × 512 block j of the features h, the 1024 × 512 block i of h again (the two
  windows read ONE array), the 1024 × 1 block i of the scale as a column, the 1 × 2048 block j of the scale as a row —,
  one output window (block i of the result, written back at j = 3 only) and one 1024 × 512 scratch carried between
  grid points. At j = 0 the scratch is reset to zero; at every j the product of the column-scaled adjacency block with
  the feature block is added to it; at j = 3 the output block is stored: the row scale times the scratch plus the
  squared row scale times the row block of h.

  This module: the windows' blocks at the contents V the region is entered with, the two branch conditions in closed
  form over the grid, where the output window is idle, and the body's run in each of the three cases, the stores each
  buffer ends with found by the run itself. A case's run takes only the buffers that case touches.
-/
import proofs.«135736_j29987461660874_1_alg».proof.Proof.Gen.KernelIdeal.Launch
import proofs.«135736_j29987461660874_1_alg».proof.Proof.Gen.KernelIdeal.Skeleton
import proofs.«135736_j29987461660874_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two branch conditions -/

/-- "j = 0", as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "j = 3". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Away from j = 3 the output window is idle and is not written back. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging and scratch memrefs -/

abbrev VO2_5 : View sig .tc .vmem S1024x512 .f32 := (Memref.whole cc2_stg5_0 : Memref sig .tc .vmem S1024x512 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x512 .f32 := win2_5.stage (cfg2.slots t 5)
abbrev hs2_5 (t : Fin cfg2.N) : (ms2_5 t).IsWhole := hstage2_5 ((cfg2.slots t 5).cast nbuf2_5)
/-- The scratch accumulator. -/
abbrev scM2 : Memref sig .tc .vmem S1024x512 .f32 := Memref.whole cc2_scratch0
abbrev VS2 : View sig .tc .vmem S1024x512 .f32 := scM2.view

/-- The class invariant with the scratch accumulator split off the other scoped buffers. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

/-! ## The body's run, case by case -/

set_option maxHeartbeats 1000000 in
/-- Case j = 0: the scratch at anything; the body resets it and adds the block product. -/
noncomputable def kernelRun2_A (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : cond2_0 i) (hc1 : ¬cond2_1 i)
    (x0 : Vec F S1024x2048 .f32) (x1 : Vec F S2048x512 .f32) (x4 : Vec F S1x2048 .f32) :
    { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ (∃ d, owns (c : Thread nD τ) arg8 fullShare d)
            ∗ (iprop(owns (c : Thread nD τ) arg2 fullShare x0 ∗ owns (c : Thread nD τ) arg3 fullShare x1 ∗ owns (c : Thread nD τ) arg6 fullShare x4 ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, fun E K => ?run⟩
  case run =>
    simp only [cc2__prop_kernel_eq_skeleton]; unfold cc2__prop_kernel_skel
    unfold owns
    iintro ⟨⟨%f0, %hf0, H0⟩, ⟨%f1, %hf1, H1⟩, ⟨%f4, %hf4, H4⟩, ⟨%ds0, %fs0, -, HS0⟩, Hk⟩
    obtain rfl := harg2.eq_unread hf0; obtain rfl := harg3.eq_unread hf1; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    iexists _; iexact HS0

set_option maxHeartbeats 1000000 in
/-- Case j = 1, 2: the scratch at what the point before left; the body adds the block product. -/
noncomputable def kernelRun2_B (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : ¬cond2_0 i) (hc1 : ¬cond2_1 i)
    (x0 : Vec F S1024x2048 .f32) (x1 : Vec F S2048x512 .f32) (x4 : Vec F S1x2048 .f32) (xs0 : Vec F S1024x512 .f32) :
    { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg6 fullShare x4 ∗ owns (c : Thread nD τ) arg8 fullShare xs0
            ∗ (iprop(owns (c : Thread nD τ) arg2 fullShare x0 ∗ owns (c : Thread nD τ) arg3 fullShare x1 ∗ owns (c : Thread nD τ) arg6 fullShare x4 ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, fun E K => ?run⟩
  case run =>
    simp only [cc2__prop_kernel_eq_skeleton]; unfold cc2__prop_kernel_skel
    unfold owns
    iintro ⟨⟨%f0, %hf0, H0⟩, ⟨%f1, %hf1, H1⟩, ⟨%f4, %hf4, H4⟩, ⟨%fs0, %hfs0, HS0⟩, Hk⟩
    obtain rfl := harg2.eq_unread hf0; obtain rfl := harg3.eq_unread hf1; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg6.read_unread _
      iexact H4
    iexists _; iexact HS0

set_option maxHeartbeats 1000000 in
/-- Case j = 3: the scratch at what the point before left; the body adds the block product and stores the output block. -/
noncomputable def kernelRun2_C (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole) (hc0 : ¬cond2_0 i) (hc1 : cond2_1 i)
    (x0 : Vec F S1024x2048 .f32) (x1 : Vec F S2048x512 .f32) (x2 : Vec F S1024x512 .f32) (x3 : Vec F S1024x1 .f32) (x4 : Vec F S1x2048 .f32) (xs0 : Vec F S1024x512 .f32) :
    Σ' (L5 : List (View.Piece (Elt F) S1024x512 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc2__prop_kernel i arg2 harg2 arg3 harg3 arg4 harg4 arg5 harg5 arg6 harg6 arg7 harg7 arg8 harg8) K } := by
  refine ⟨?_, ?_, fun E K => ?run⟩
  case run =>
    simp only [cc2__prop_kernel_eq_skeleton]; unfold cc2__prop_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Reg2.lean ====
/-
  The propagation region, continued: what the scratch accumulator and the output block hold after each grid point (by
  recursion on the point), the region invariant that carries the scratch between points, the proof data — the two
  windows on the feature array hold it at the two halves of the full share —, the body obligation by cases on j, and
  the invariant's entry and exit.
-/
import proofs.«135736_j29987461660874_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- An idle output block: nothing stored, nothing consulted. -/
def idle2 : Vec F S1024x512 .f32 := VO2_5.read (Elt F) (VO2_5.writes (Elt F) VO2_5.junk [])

section Cases
variable (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)

theorem scover2_A (hc0 : cond2_0 i) (hc1 : ¬cond2_1 i) (x0 : Vec F S1024x2048 .f32) (x1 : Vec F S2048x512 .f32) (x4 : Vec F S1x2048 .f32) (y : S1024x512.Idx) :
    ∃ pc ∈ (kernelRun2_A c i arg2 harg2 arg3 harg3 arg4 harg4 arg5 harg5 arg6 harg6 arg7 harg7 arg8 harg8 hc0 hc1 x0 x1 x4).1, y ∈ pc.1.set :=
  View.cover_of_tiledL (kernelRun2_A c i arg2 harg2 arg3 harg3 arg4 harg4 arg5 harg5 arg6 harg6 arg7 harg7 arg8 harg8 hc0 hc1 x0 x1 x4).1 S1024x512.size (by sl_kernel_rfl) y
/-- The scratch after a point with j = 0. -/
def sout2_A (hc0 : cond2_0 i) (hc1 : ¬cond2_1 i) (x0 : Vec F S1024x2048 .f32) (x1 : Vec F S2048x512 .f32) (x4 : Vec F S1x2048 .f32) : Vec F S1024x512 .f32 :=
  VS2.read (Elt F) (VS2.writes (Elt F) VS2.junk (kernelRun2_A c i arg2 harg2 arg3 harg3 arg4 harg4 arg5 harg5 arg6 harg6 arg7 harg7 arg8 harg8 hc0 hc1 x0 x1 x4).1)

theorem scover2_B (hc0 : ¬cond2_0 i) (hc1 : ¬cond2_1 i) (x0 : Vec F S1024x2048 .f32) (x1 : Vec F S2048x512 .f32) (x4 : Vec F S1x2048 .f32) (xs0 : Vec F S1024x512 .f32) (y : S1024x512.Idx) :
    ∃ pc ∈ (kernelRun2_B c i arg2 harg2 arg3 harg3 arg4 harg4 arg5 harg5 arg6 harg6 arg7 harg7 arg8 harg8 hc0 hc1 x0 x1 x4 xs0).1, y ∈ pc.1.set :=
  View.cover_of_tiledL (kernelRun2_B c i arg2 harg2 arg3 harg3 arg4 harg4 arg5 harg5 arg6 harg6 arg7 harg7 arg8 harg8 hc0 hc1 x0 x1 x4 xs0).1 S1024x512.size (by sl_kernel_rfl) y
/-- The scratch after a point with j = 1, 2. -/
def sout2_B (hc0 : ¬cond2_0 i) (hc1 : ¬cond2_1 i) (x0 : Vec F S1024x2048 .f32) (x1 : Vec F S2048x512 .f32) (x4 : Vec F S1x2048 .f32) (xs0 : Vec F S1024x512 .f32) : Vec F S1024x512 .f32 :=
  VS2.read (Elt F) (VS2.writes (Elt F) VS2.junk (kernelRun2_B c i arg2 harg2 arg3 harg3 arg4 harg4 arg5 harg5 arg6 harg6 arg7 harg7 arg8 harg8 hc0 hc1 x0 x1 x4 xs0).1)

section C
variable (hc0 : ¬cond2_0 i) (hc1 : cond2_1 i) (x0 : Vec F S1024x2048 .f32) (x1 : Vec F S2048x512 .f32) (x2 : Vec F S1024x512 .f32) (x3 : Vec F S1024x1 .f32) (x4 : Vec F S1x2048 .f32) (xs0 : Vec F S1024x512 .f32)

theorem cover2_C (y : S1024x512.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x512.size (by sl_kernel_rfl) y
/-- The output block after a point with j = 3. -/
def out2_C : Vec F S1024x512 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)
theorem scover2_C (y : S1024x512.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x512.size (by sl_kernel_rfl) y
/-- The scratch after a point with j = 3. -/
def sout2_C : Vec F S1024x512 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs0).2.1)
end C

end Cases

/-! ## What the output block and the scratch hold after each point -/

/-- After position n: (the output block, the scratch). -/
def outsAt2 (c : Dev nD) : (n : ℕ) → n < cfg2.N → Vec F S1024x512 .f32 × Vec F S1024x512 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 4 ⟨0, hn⟩))
  | n + 1, hn =>
    if h0 : (n + 1) % 4 = 0 then
      (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 4 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (idle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 4 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 4 t)) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (idle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other scoped buffers, untouched by this kernel. -/
abbrev Rest2 (c : Dev nD) : sProp 𝕄 :=
  Pipeline.scopedRestBut (Ix := Unit) (Name := ℕ) (U := UR sig nD τ) (Lvl := ℕ) (Val := Elt F) spec2 c [cc2_scratch0]

/-- Before position n: at the first point the class invariant (the scratch at anything); afterwards the scratch at what
    the point before left, the other scoped buffers, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The proof data -/

/-- The proof data of the region on core c. The two windows on the feature array hold it at the left and the right half of
    the full share; every other input array is held at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 4 = 0
  · have h1 : ¬t.val % 4 = 3 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 4 t)).2 Set.univ _)
      isplitl [H0]; · iexact H0
      isplitl [H1]; · iexact H1
      isplitl [H4]; · iexact H4
      isplitl [HS0]; · iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 4 t)).2 Set.univ _)
      isplitl [H0]; · iexact H0
      isplitl [H1]; · iexact H1
      isplitl [H4]; · iexact H4
      isplitl [HS0]; · iexists _; iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 4 t) _).2 Set.univ _)
      isplitl [H0]; · iexact H0
      isplitl [H1]; · iexact H1
      isplitl [H4]; · iexact H4
      isplitl [HS0]; · iexact HS0
      iintro ⟨H0, H1, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation2 (c : Dev nD) : BodyObligation (dat2 (F := F) V c) (defs₀ (F := F)) Variants.none () Set.univ := fun t => by
  rw [bigSep_W2, bigSep_W2]
  exact sound_body2 V c t

/-! ## Entering and leaving the invariant -/

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, HR⟩, Hg⟩
  isplitl [HS0 HR]
  · isplitl [HS0]
    · iexists _; iexact HS0
    iexact HR
  iexact Hg

end Cert.KernelIdeal.Hand

end
-- ==== Proof.KI.Share2.lean ====
/-
  The propagation region's arrays. Its six windows sit on FIVE buffers: the adjacency matrix, the features (read by two
  windows, at the left and the right half of the full share), the scale as a column, the scale as a row, and the
  result. The five buffers, each whole at the full share at contents X, are the same resource as the six windows'
  arrays at contents F whenever F w is X at window w's buffer: the features' points-to split in two halves, the others
  as they are.
-/
import proofs.«135736_j29987461660874_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The shares, by evaluation -/

theorem share2_0 (c : Dev nD) : (dat2 V c).share 0 = fullShare := rfl
theorem share2_1 (c : Dev nD) : (dat2 V c).share 1 = fullShare.left := rfl
theorem share2_2 (c : Dev nD) : (dat2 V c).share 2 = fullShare.right := rfl
theorem share2_3 (c : Dev nD) : (dat2 V c).share 3 = fullShare := rfl
theorem share2_4 (c : Dev nD) : (dat2 V c).share 4 = fullShare := rfl
theorem share2_5 (c : Dev nD) : (dat2 V c).share 5 = fullShare := rfl

/-- The buffers behind the windows' arrays, without repetition. -/
theorem arrRefs2 : Finset.univ.image (Pipeline.arrRef spec2) = ({main_arg1, main_v2, main_v9, main_v10, main_v11} : Finset (Ref sig .tc)) := by decide

section
variable (c : Dev nD) (X : (b : Ref sig .tc) → Buf (Elt F) ((c : Thread nD τ).loc b))
  (Fw : (w : Fin cfg2.W) → Buf (Elt F) ((cfg2.win w).arr.view.loc (c.tc : Thread nD τ)))
  (hF : ∀ w, Fw w = X (Pipeline.arrRef spec2 w))

include hF in
/-- One window's array, whole, at its share, as a points-to of the buffer behind it. -/
theorem arr2_eq (w : Fin cfg2.W) (q : PosShare TreeShare) (hq : (dat2 V c).share w = q) :
    (((cfg2.win w).arr.view.loc (c.tc : Thread nD τ) ↦[(cfg2.win w).arr.view.set]{(dat2 V c).share w} Fw w) : sProp 𝕄)
      = (((c.tc : Thread nD τ).loc (Pipeline.arrRef spec2 w)) ↦{q} X (Pipeline.arrRef spec2 w)) := by
  rw [(arr_whole2 w).set_eq_univ, hq, hF w]

/-- The six windows' arrays, spelt out over the five buffers. -/
def Arr2 : sProp 𝕄 :=
  iprop((((c.tc : Thread nD τ).loc main_arg1) ↦{fullShare} X main_arg1)
    ∗ (((c.tc : Thread nD τ).loc main_v2) ↦{fullShare.left} X main_v2)
    ∗ (((c.tc : Thread nD τ).loc main_v2) ↦{fullShare.right} X main_v2)
    ∗ (((c.tc : Thread nD τ).loc main_v9) ↦{fullShare} X main_v9)
    ∗ (((c.tc : Thread nD τ).loc main_v10) ↦{fullShare} X main_v10)
    ∗ (((c.tc : Thread nD τ).loc main_v11) ↦{fullShare} X main_v11))

include hF in
theorem arrays2_eq : ((dat2 V c).arrays Fw : sProp 𝕄) = Arr2 c X := by
  unfold Dat.arrays Arr2
  rw [bigSep_W2, arr2_eq V c X Fw hF 0 _ (share2_0 V c), arr2_eq V c X Fw hF 1 _ (share2_1 V c), arr2_eq V c X Fw hF 2 _ (share2_2 V c),
    arr2_eq V c X Fw hF 3 _ (share2_3 V c), arr2_eq V c X Fw hF 4 _ (share2_4 V c), arr2_eq V c X Fw hF 5 _ (share2_5 V c)]

/-- The five buffers whole at the full share. -/
theorem arrBufs2_eq : (Pipeline.arrBufs spec2 c X : sProp 𝕄)
    = iprop((((c.tc : Thread nD τ).loc main_arg1) ↦{fullShare} X main_arg1)
      ∗ (((c.tc : Thread nD τ).loc main_v2) ↦{fullShare} X main_v2)
      ∗ (((c.tc : Thread nD τ).loc main_v9) ↦{fullShare} X main_v9)
      ∗ (((c.tc : Thread nD τ).loc main_v10) ↦{fullShare} X main_v10)
      ∗ (((c.tc : Thread nD τ).loc main_v11) ↦{fullShare} X main_v11)) := by
  unfold Pipeline.arrBufs
  rw [arrRefs2, bigSep_insert (by decide), bigSep_insert (by decide), bigSep_insert (by decide), bigSep_insert (by decide), bigSep_singleton]
  rfl

include hF in
/-- Entry: the five buffers make the six windows' arrays. -/
theorem arrays2_of_bufs : (Pipeline.arrBufs spec2 c X : sProp 𝕄) ⊢ (dat2 V c).arrays Fw := by
  rw [arrays2_eq V c X Fw hF, arrBufs2_eq]; unfold Arr2
  iintro ⟨H1, H2, H9, H10, H11⟩
  ihave H2' := (pointsTo_share (PosShare.mem_left_op_right fullShare)).1 $$ H2
  icases H2' with ⟨H2l, H2r⟩
  isplitl [H1]; · iexact H1
  isplitl [H2l]; · iexact H2l
  isplitl [H2r]; · iexact H2r
  isplitl [H9]; · iexact H9
  isplitl [H10]; · iexact H10
  iexact H11

include hF in
/-- Exit: the six windows' arrays make the five buffers. -/
theorem bufs_of_arrays2 : ((dat2 V c).arrays Fw : sProp 𝕄) ⊢ Pipeline.arrBufs spec2 c X := by
  rw [arrays2_eq V c X Fw hF, arrBufs2_eq]; unfold Arr2
  iintro ⟨H1, H2l, H2r, H9, H10, H11⟩
  isplitl [H1]; · iexact H1
  isplitl [H2l H2r]
  · iapply (pointsTo_share (PosShare.mem_left_op_right fullShare)).2
    isplitl [H2l]; · iexact H2l
    iexact H2r
  isplitl [H9]; · iexact H9
  isplitl [H10]; · iexact H10
  iexact H11

end

end Cert.KernelIdeal.Hand

end
-- ==== Proof.KI.Run.lean ====
/-
  The whole program: two host reshapes, the projection region, the row-sum region, the host lines that turn the row sums
  into the scale (add one, power −1/2, replace an infinite value by zero, and the same column viewed as a row), the
  propagation region. The contents of every unscoped buffer at each boundary are a fold from the launch memory: a host
  stretch applies its operations, a region replaces its output array by what its write-backs leave. Each region is a
  record around the thread state "every unscoped buffer at the boundary's contents, the generator register, nothing
  owed"; the run composes the records and reads the last boundary's contents off the final memory: the result array
  is what the propagation region's write-backs leave, and no argument was ever written.
-/
import proofs.«135736_j29987461660874_1_alg».proof.Proof.KI.Reg0
import proofs.«135736_j29987461660874_1_alg».proof.Proof.KI.Reg1
import proofs.«135736_j29987461660874_1_alg».proof.Proof.KI.Share2
import proofs.«135736_j29987461660874_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the row-sum region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After each of the five host stretches that make the scale. -/
abbrev W4 : Dev nD → Valuation τ sig (Elt F) := fun c => StableHlo.after hostOps2 (W3 m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev V8 : (c : Dev nD) → (b : Ref sig .tc) → Buf (Elt F) ((c : Thread nD τ).loc b) := fun c b => W8 m ρ c b

/-- After the propagation region: the result array at what its write-backs leave, every other buffer as entered (its
    other arrays are inputs, never written). -/
def W9 (c : Dev nD) : Valuation τ sig (Elt F) :=
  Function.update (W8 m ρ c) (Proc.devRef .tc main_v11) ((dat2 (V8 m ρ) c).arrAt 5 cfg2.N)
abbrev V9 : (c : Dev nD) → (b : Ref sig .tc) → Buf (Elt F) ((c : Thread nD τ).loc b) := fun c b => W9 m ρ c b
theorem W9_main_v11 (c : Dev nD) : W9 m ρ c (Proc.devRef .tc main_v11) = (dat2 (V8 m ρ) c).arrAt 5 cfg2.N := by
  unfold W9; exact Function.update_self _ _ _
theorem W9_of_ne (c : Dev nD) (b : Ref sig .tc) (hb : b ≠ main_v11) :
    W9 m ρ c (Proc.devRef .tc b) = W8 m ρ c (Proc.devRef .tc b) := by
  unfold W9; exact Function.update_of_ne (StableHlo.devRef_ne_of_ne hb) _ _

/-! ## No argument is ever written -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := StableHlo.after_of_writes_sub hostOps2_4 _ hostOps2_4_writes (by decide)
    _ = W6 m ρ c (Proc.devRef .tc main_arg0) := StableHlo.after_of_writes_sub hostOps2_3 _ hostOps2_3_writes (by decide)
    _ = W5 m ρ c (Proc.devRef .tc main_arg0) := StableHlo.after_of_writes_sub hostOps2_2 _ hostOps2_2_writes (by decide)
    _ = W4 m ρ c (Proc.devRef .tc main_arg0) := StableHlo.after_of_writes_sub hostOps2_1 _ hostOps2_1_writes (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := StableHlo.after_of_writes_sub hostOps2_4 _ hostOps2_4_writes (by decide)
    _ = W6 m ρ c (Proc.devRef .tc main_arg1) := StableHlo.after_of_writes_sub hostOps2_3 _ hostOps2_3_writes (by decide)
    _ = W5 m ρ c (Proc.devRef .tc main_arg1) := StableHlo.after_of_writes_sub hostOps2_2 _ hostOps2_2_writes (by decide)
    _ = W4 m ρ c (Proc.devRef .tc main_arg1) := StableHlo.after_of_writes_sub hostOps2_1 _ hostOps2_1_writes (by decide)
    _ = W3 m ρ c (Proc.devRef .tc main_arg1) := StableHlo.after_of_writes_sub hostOps2 _ hostOps2_writes (by decide)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := StableHlo.after_of_writes_sub hostOps2_4 _ hostOps2_4_writes (by decide)
    _ = W6 m ρ c (Proc.devRef .tc main_arg2) := StableHlo.after_of_writes_sub hostOps2_3 _ hostOps2_3_writes (by decide)
    _ = W5 m ρ c (Proc.devRef .tc main_arg2) := StableHlo.after_of_writes_sub hostOps2_2 _ hostOps2_2_writes (by decide)
    _ = W4 m ρ c (Proc.devRef .tc main_arg2) := StableHlo.after_of_writes_sub hostOps2_1 _ hostOps2_1_writes (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := StableHlo.after_of_writes_sub hostOps2_4 _ hostOps2_4_writes (by decide)
    _ = W6 m ρ c (Proc.devRef .tc main_arg3) := StableHlo.after_of_writes_sub hostOps2_3 _ hostOps2_3_writes (by decide)
    _ = W5 m ρ c (Proc.devRef .tc main_arg3) := StableHlo.after_of_writes_sub hostOps2_2 _ hostOps2_2_writes (by decide)
    _ = W4 m ρ c (Proc.devRef .tc main_arg3) := StableHlo.after_of_writes_sub hostOps2_1 _ hostOps2_1_writes (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := StableHlo.after_of_writes_sub hostOps2_4 _ hostOps2_4_writes (by decide)
    _ = W6 m ρ c (Proc.devRef .tc main_arg4) := StableHlo.after_of_writes_sub hostOps2_3 _ hostOps2_3_writes (by decide)
    _ = W5 m ρ c (Proc.devRef .tc main_arg4) := StableHlo.after_of_writes_sub hostOps2_2 _ hostOps2_2_writes (by decide)
    _ = W4 m ρ c (Proc.devRef .tc main_arg4) := StableHlo.after_of_writes_sub hostOps2_1 _ hostOps2_1_writes (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_writes_sub hostOps0 _ hostOps0_writes (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := StableHlo.after_of_writes_sub hostOps2_4 _ hostOps2_4_writes (by decide)
    _ = W6 m ρ c (Proc.devRef .tc main_arg5) := StableHlo.after_of_writes_sub hostOps2_3 _ hostOps2_3_writes (by decide)
    _ = W5 m ρ c (Proc.devRef .tc main_arg5) := StableHlo.after_of_writes_sub hostOps2_2 _ hostOps2_2_writes (by decide)
    _ = W4 m ρ c (Proc.devRef .tc main_arg5) := StableHlo.after_of_writes_sub hostOps2_1 _ hostOps2_1_writes (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V8 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m ρ) c)
  hout c := by
    refine (hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### The propagation region: its arrays dealt by hand (two windows on one buffer) -/

theorem unsc2 : ∀ w, (Pipeline.arrRef spec2 w).isScoped = false := by decide

/-- Entry: every unscoped buffer at the boundary's contents is the region's arrays at their entry contents and the rest. -/
theorem entry2 (c : Dev nD) :
    (StableHlo.held (c : Thread nD τ) (Pipeline.ucRefs τ sig) (W8 m ρ c) : sProp 𝕄)
      ⊢ iprop((dat2 (V8 m ρ) c).arrays ((dat2 (V8 m ρ) c).arrAt · 0) ∗ Pipeline.unscopedRest (Ix := Unit) (Name := ℕ) (U := UR sig nD τ) (Lvl := ℕ) spec2 c (V8 m ρ c)) := by
  rw [← Pipeline.unscopedBufs_held (Ix := Unit) (Name := ℕ) (U := UR sig nD τ) (Lvl := ℕ) c (W8 m ρ c),
    Pipeline.unscopedBufs_split₀ cfgs 2 unsc2 c (V8 m ρ c)]
  exact sep_mono (arrays2_of_bufs (V8 m ρ) c (V8 m ρ c) _ fun w => A_eq2 (V8 m ρ) c w) .rfl

/-- What the region's arrays hold at its exit is the next boundary's contents at their buffers. -/
theorem hF2 (c : Dev nD) (w : Fin cfg2.W) : (dat2 (V8 m ρ) c).arrAt w cfg2.N = V9 m ρ c (Pipeline.arrRef spec2 w) := by
  match w with
  | ⟨0, _⟩ => exact (((dat2 (V8 m ρ) c).arrAt_in 0 rfl _).trans (A_eq2 (V8 m ρ) c 0)).trans (W9_of_ne m ρ c _ (by decide)).symm
  | ⟨1, _⟩ => exact (((dat2 (V8 m ρ) c).arrAt_in 1 rfl _).trans (A_eq2 (V8 m ρ) c 1)).trans (W9_of_ne m ρ c _ (by decide)).symm
  | ⟨2, _⟩ => exact (((dat2 (V8 m ρ) c).arrAt_in 2 rfl _).trans (A_eq2 (V8 m ρ) c 2)).trans (W9_of_ne m ρ c _ (by decide)).symm
  | ⟨3, _⟩ => exact (((dat2 (V8 m ρ) c).arrAt_in 3 rfl _).trans (A_eq2 (V8 m ρ) c 3)).trans (W9_of_ne m ρ c _ (by decide)).symm
  | ⟨4, _⟩ => exact (((dat2 (V8 m ρ) c).arrAt_in 4 rfl _).trans (A_eq2 (V8 m ρ) c 4)).trans (W9_of_ne m ρ c _ (by decide)).symm
  | ⟨5, _⟩ => exact (W9_main_v11 m ρ c).symm

/-- Exit: the region's arrays at their exit contents and the rest are every unscoped buffer at the next boundary's contents. -/
theorem exit2 (c : Dev nD) :
    iprop((dat2 (V8 m ρ) c).arrays ((dat2 (V8 m ρ) c).arrAt · cfg2.N) ∗ Pipeline.unscopedRest (Ix := Unit) (Name := ℕ) (U := UR sig nD τ) (Lvl := ℕ) spec2 c (V8 m ρ c))
      ⊢ (StableHlo.held (c : Thread nD τ) (Pipeline.ucRefs τ sig) (W9 m ρ c) : sProp 𝕄) := by
  rw [← Pipeline.unscopedBufs_held (Ix := Unit) (Name := ℕ) (U := UR sig nD τ) (Lvl := ℕ) c (W9 m ρ c),
    Pipeline.unscopedBufs_split₀ cfgs 2 unsc2 c (V9 m ρ c)]
  refine sep_mono (bufs_of_arrays2 (V8 m ρ) c (V9 m ρ c) _ (hF2 m ρ c)) (Entails.of_eq ?_)
  unfold Pipeline.unscopedRest
  refine bigSep_congr fun b hb => ?_
  have hb' : b ≠ main_v11 := fun e => (Finset.mem_sdiff.mp hb).2 (Finset.mem_image.mpr ⟨5, Finset.mem_univ _, e ▸ rfl⟩)
  rw [show V9 m ρ c b = V8 m ρ c b from W9_of_ne m ρ c b hb']

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
          ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (V8 m ρ) c)
  hout c := by
    refine (hout2 (V8 m ρ) c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · have hx : iprop((pdats m ρ 2 c).arrays ((pdats m ρ 2 c).arrAt · cfg2.N)
              ∗ Pipeline.unscopedRest (Ix := Unit) (Name := ℕ) (U := UR sig nD τ) (Lvl := ℕ) spec2 c (V8 m ρ c))
            ⊢ (StableHlo.held (c : Thread nD τ) (Pipeline.ucRefs τ sig) (W9 m ρ c) : sProp 𝕄) := exit2 m ρ c
        iapply hx; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from memory m with zero counters terminates, faulting nowhere, with the
    result array at what the propagation region's write-backs leave and every argument array as launched. -/
theorem run_main : θ_run defs (onTc (τ := τ) (main (F := F))) ⟨m, fun _ => 0, ρ⟩ (fun r => ∀ c : Dev nD,
      r.2.mem ((c.tc : Thread nD τ).loc main_v11) = (dat2 (V8 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v11 (by decide))).trans (W9_main_v11 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Spec.lean ====
/-
  The graph-convolution layer both programs compute, as pure functions of the six argument arrays over the
  extended reals.

  Features: two dense layers, h1[i,p] = Σ_k x[i,k]·W1[p,k] + b1[p] and h[i,q] = Σ_p h1[i,p]·W2[q,p] + b2[q].
  Degree: d[i] = Σ_j adj[i,j] + 1 (the self loop). Scale: s[i] = d[i]^(-1/2), an infinite value replaced by 0.
  Propagation, in the arrangement "row scale outside the sum, self loop apart":
      out[i,q] = s[i] · Σ_j (adj[i,j]·s[j])·h[j,q]  +  (s[i]·s[i])·h[i,q].
  The arrangement "normalised matrix (adj + I) scaled on both sides, then one product"
      Σ_j ((s[i]·(adj[i,j] + [i = j]))·s[j])·h[j,q]
  is the same number when every entry involved is real (distributivity over a finite sum).
-/
import Idealize.ShloMosaic.PureOps.Ideal
import Idealize.ShloMosaic.Lib.ValueIdx

noncomputable section

open scoped BigOperators

namespace Cert.Gcn

open Idealize.ShloMosaic Idealize.ShloMosaic.ValueIdx

/-- A matrix / a vector of extended reals over literal extents. -/
abbrev Mat (a b : Nat) : Type := (⟨2, ![a, b]⟩ : Shape).Idx → EReal
abbrev Col (a : Nat) : Type := (⟨1, ![a]⟩ : Shape).Idx → EReal

/-- The hidden layer: h1[i,p] = Σ_k x[i,k]·W1[p,k] + b1[p]. -/
def hid (x : Mat 8192 512) (W1 : Mat 256 512) (b1 : Col 256) (i : Fin 8192) (p : Fin 256) : EReal :=
  (∑ k : Fin 512, x (ix2 i k) * W1 (ix2 p k)) + b1 (ix1 p)

/-- The projected features: h[i,q] = Σ_p h1[i,p]·W2[q,p] + b2[q]. -/
def feat (x : Mat 8192 512) (W1 : Mat 256 512) (b1 : Col 256) (W2 : Mat 512 256) (b2 : Col 512)
    (i : Fin 8192) (q : Fin 512) : EReal :=
  (∑ p : Fin 256, hid x W1 b1 i p * W2 (ix2 q p)) + b2 (ix1 q)

/-- The degree with the self loop: d[i] = Σ_j adj[i,j] + 1. -/
def deg (adj : Mat 8192 8192) (i : Fin 8192) : EReal := (∑ j : Fin 8192, adj (ix2 i j)) + 1

/-- d ↦ d^(-1/2) with an infinite value replaced by 0: the power, the test "|p| = +∞" and the selection, at one entry. -/
def invSqrt (d : EReal) : EReal :=
  Scalar.select
    (FloatOps.cmpf (F := Ideal) (φ := .f32) .oeq
      (FloatOps.hostAbsf (F := Ideal) (φ := .f32) (FloatOps.hostPowf (F := Ideal) (φ := .f32) d (Ideal.ofBits .f32 0xBF000000#32)))
      (Ideal.ofBits .f32 0x7F800000#32))
    (Ideal.ofBits .f32 0x00000000#32)
    (FloatOps.hostPowf (F := Ideal) (φ := .f32) d (Ideal.ofBits .f32 0xBF000000#32))

/-- The scale of row i. -/
def scale (adj : Mat 8192 8192) (i : Fin 8192) : EReal := invSqrt (deg adj i)

/-- The propagated features: out[i,q] = s[i]·Σ_j (adj[i,j]·s[j])·h[j,q] + (s[i]·s[i])·h[i,q]. -/
def outK (x : Mat 8192 512) (adj : Mat 8192 8192) (W1 : Mat 256 512) (b1 : Col 256) (W2 : Mat 512 256) (b2 : Col 512)
    (i : Fin 8192) (q : Fin 512) : EReal :=
  scale adj i * (∑ j : Fin 8192, (adj (ix2 i j) * scale adj j) * feat x W1 b1 W2 b2 j q)
    + (scale adj i * scale adj i) * feat x W1 b1 W2 b2 i q

/-- The whole result array: entry (i,q) is `outK … i q`. -/
def G (x : Mat 8192 512) (adj : Mat 8192 8192) (W1 : Mat 256 512) (b1 : Col 256) (W2 : Mat 512 256) (b2 : Col 512) :
    Mat 8192 512 :=
  fun j => outK x adj W1 b1 W2 b2 (j 0) (j 1)

end Cert.Gcn

end
-- ==== Proof.ValSpec.lean ====
/-
  What each of the three kernel regions computes, as pure functions over the extended reals of the arrays the region
  is handed (the biases as 1 × n rows, the scale as an 8192 × 1 column and as a 1 × 8192 row, as the kernel receives
  them).
-/
import Idealize.ShloMosaic.PureOps.Ideal
import Idealize.ShloMosaic.Lib.ValueIdx

noncomputable section

open scoped BigOperators

namespace Cert.Gcn

open Idealize.ShloMosaic Idealize.ShloMosaic.ValueIdx

/-- The dense projection from row-shaped biases: Σ_p (Σ_k x[i,k]·W1[p,k] + b1[0,p])·W2[q,p] + b2[0,q]. -/
def featRow (x : (⟨2, ![8192, 512]⟩ : Shape).Idx → EReal) (W1 : (⟨2, ![256, 512]⟩ : Shape).Idx → EReal)
    (b1 : (⟨2, ![1, 256]⟩ : Shape).Idx → EReal) (W2 : (⟨2, ![512, 256]⟩ : Shape).Idx → EReal)
    (b2 : (⟨2, ![1, 512]⟩ : Shape).Idx → EReal) (i : Fin 8192) (q : Fin 512) : EReal :=
  (∑ p : Fin 256, ((∑ k : Fin 512, x (ix2 i k) * W1 (ix2 p k)) + b1 (ix2 0 p)) * W2 (ix2 q p)) + b2 (ix2 0 q)

/-- The row sum of the adjacency matrix. -/
def rowSum (adj : (⟨2, ![8192, 8192]⟩ : Shape).Idx → EReal) (i : Fin 8192) : EReal := ∑ j : Fin 8192, adj (ix2 i j)

/-- The propagation from the scale as a column sc and as a row sr:
    sc[i,0]·Σ_j (adj[i,j]·sr[0,j])·h[j,q] + (sc[i,0]·sc[i,0])·h[i,q]. -/
def propagate (adj : (⟨2, ![8192, 8192]⟩ : Shape).Idx → EReal) (h : (⟨2, ![8192, 512]⟩ : Shape).Idx → EReal)
    (sc : (⟨2, ![8192, 1]⟩ : Shape).Idx → EReal) (sr : (⟨2, ![1, 8192]⟩ : Shape).Idx → EReal) (i : Fin 8192) (q : Fin 512) : EReal :=
  sc (ix2 i 0) * (∑ j : Fin 8192, (adj (ix2 i j) * sr (ix2 0 j)) * h (ix2 j q)) + (sc (ix2 i 0) * sc (ix2 i 0)) * h (ix2 i q)

end Cert.Gcn

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.KI.Glue.lean ====
/-
  The host lines between the regions, read at an entry, over the extended reals. The two reshapes turn the biases into
  1 × n rows. After the row-sum region the scale is made of the row sums d: p = (d + 1)^(-1/2), then 0 where |p| = +∞ and
  p elsewhere — at entry (i, 0) this is invSqrt (d[i,0] + 1) —, and the same column is viewed as a 1 × 8192 row. Every
  other buffer the propagation region is handed is what an earlier region or the launch left there: no host line and no
  other region writes it.
-/
import proofs.«135736_j29987461660874_1_alg».proof.Proof.KI.Run
import proofs.«135736_j29987461660874_1_alg».proof.Proof.Spec
import proofs.«135736_j29987461660874_1_alg».proof.Proof.ValSpec
import proofs.«135736_j29987461660874_1_alg».proof.Proof.LibColumn
import Idealize.ShloMosaic.Lib.Pipeline.Value
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Gcn Idealize.ShloMosaic.ValueIdx

variable (m : (ℓ : Loc nD τ sig) → Buf (Elt Ideal) ℓ) (ρ : Dev nD → PrngReg) (c : Dev nD)

/-! ## Buffers no line writes -/

theorem V1_arg0 : V1 m ρ c main_arg0 = m ((c : Thread nD τ).loc main_arg0) :=
  StableHlo.after_of_writes_sub hostOps0 _ hostOps0_writes (by decide)
theorem V1_arg2 : V1 m ρ c main_arg2 = m ((c : Thread nD τ).loc main_arg2) :=
  StableHlo.after_of_writes_sub hostOps0 _ hostOps0_writes (by decide)
theorem V1_arg4 : V1 m ρ c main_arg4 = m ((c : Thread nD τ).loc main_arg4) :=
  StableHlo.after_of_writes_sub hostOps0 _ hostOps0_writes (by decide)
theorem V2_arg1 : V2 m ρ c main_arg1 = m ((c : Thread nD τ).loc main_arg1) :=
  (W2_of_ne m ρ c main_arg1 (by decide)).trans (StableHlo.after_of_writes_sub hostOps0 _ hostOps0_writes (by decide))
theorem V8_arg1 : V8 m ρ c main_arg1 = m ((c : Thread nD τ).loc main_arg1) :=
  (W9_of_ne m ρ c main_arg1 (by decide)).symm.trans (W9_main_arg1 m ρ c)

/-- The features the propagation region reads are what the projection region's write-backs left. -/
theorem V8_v2 : V8 m ρ c main_v2 = (dat0 (V1 m ρ) c).arrAt 5 cfg0.N :=
  calc W8 m ρ c (Proc.devRef .tc main_v2)
    _ = W7 m ρ c (Proc.devRef .tc main_v2) := StableHlo.after_of_writes_sub hostOps2_4 _ hostOps2_4_writes (by decide)
    _ = W6 m ρ c (Proc.devRef .tc main_v2) := StableHlo.after_of_writes_sub hostOps2_3 _ hostOps2_3_writes (by decide)
    _ = W5 m ρ c (Proc.devRef .tc main_v2) := StableHlo.after_of_writes_sub hostOps2_2 _ hostOps2_2_writes (by decide)
    _ = W4 m ρ c (Proc.devRef .tc main_v2) := StableHlo.after_of_writes_sub hostOps2_1 _ hostOps2_1_writes (by decide)
    _ = W3 m ρ c (Proc.devRef .tc main_v2) := StableHlo.after_of_writes_sub hostOps2 _ hostOps2_writes (by decide)
    _ = W2 m ρ c (Proc.devRef .tc main_v2) := W3_of_ne m ρ c main_v2 (by decide)
    _ = (dat0 (V1 m ρ) c).arrAt 5 cfg0.N := W2_arr m ρ c 5

/-- The row sums the host lines read are what the row-sum region's write-backs left. -/
theorem W3_v3 : W3 m ρ c (Proc.devRef .tc main_v3) = (dat1 (V2 m ρ) c).arrAt 1 cfg1.N := W3_arr m ρ c 1

/-! ## The reshaped biases -/

theorem V1_v0 : V1 m ρ c main_v0 = shapeCast S1x256 (m ((c : Thread nD τ).loc main_arg3)) shapeCasts_S256_S1x256 := by
  show StableHlo.after hostOps0 (W0 m ρ c) (Proc.devRef .tc main_v0) = _
  after_results
  rfl
theorem V1_v1 : V1 m ρ c main_v1 = shapeCast S1x512 (m ((c : Thread nD τ).loc main_arg5)) shapeCasts_S512_S1x512 := by
  show StableHlo.after hostOps0 (W0 m ρ c) (Proc.devRef .tc main_v1) = _
  after_results
  rfl

/-! ## The scale -/

/-- The host lines from the row sums to the scale, as one function of the column of row sums. -/
def scaleCol (d : FVec Ideal S8192x1 .f32) : FVec Ideal S8192x1 .f32 :=
  select (cmpf .oeq (Host.absf (Host.powf (addf d (broadcastInDim S8192x1 ![] bcast_S_S8192x1 (constant (F := Ideal) S_ .f32 0x3F800000#32))) (broadcastInDim S8192x1 ![] bcast_S_S8192x1 (constant (F := Ideal) S_ .f32 0xBF000000#32))))
      (broadcastInDim S8192x1 ![] bcast_S_S8192x1 (constant (F := Ideal) S_ .f32 0x7F800000#32)))
    (broadcastInDim S8192x1 ![] bcast_S_S8192x1 (id (constant (F := Ideal) S_ .f32 0x00000000#32)))
    (Host.powf (addf d (broadcastInDim S8192x1 ![] bcast_S_S8192x1 (constant (F := Ideal) S_ .f32 0x3F800000#32))) (broadcastInDim S8192x1 ![] bcast_S_S8192x1 (constant (F := Ideal) S_ .f32 0xBF000000#32)))

theorem W7_v9 : W7 m ρ c (Proc.devRef .tc main_v9) = scaleCol (W3 m ρ c (Proc.devRef .tc main_v3)) := by
  show StableHlo.after hostOps2_3 (StableHlo.after hostOps2_2 (StableHlo.after hostOps2_1 (StableHlo.after hostOps2 (W3 m ρ c)))) (Proc.devRef .tc main_v9) = _
  after_results
  rfl

theorem V8_v9 : V8 m ρ c main_v9 = scaleCol (W3 m ρ c (Proc.devRef .tc main_v3)) :=
  (StableHlo.after_of_writes_sub hostOps2_4 _ hostOps2_4_writes (by decide)).trans (W7_v9 m ρ c)

theorem V8_v10 : V8 m ρ c main_v10 = shapeCast S1x8192 (scaleCol (W3 m ρ c (Proc.devRef .tc main_v3))) shapeCasts_S8192x1_S1x8192 := by
  rw [← W7_v9 m ρ c]
  show StableHlo.after hostOps2_4 (W7 m ρ c) (Proc.devRef .tc main_v10) = _
  after_results
  rfl

/-- Entry (i, 0) of the scale column is invSqrt of the row sum plus one. -/
theorem scaleCol_apply (d : FVec Ideal S8192x1 .f32) (i : Fin 8192) : scaleCol d (ix2 i 0) = invSqrt (d (ix2 i 0) + 1) := by
  rw [← Ideal.ofBits_one_f32]
  rfl

/-- Entry (0, j) of the scale row is entry (j, 0) of the scale column. -/
theorem scaleRow_apply (d : FVec Ideal S8192x1 .f32) (j : Fin 8192) :
    shapeCast S1x8192 (scaleCol d) shapeCasts_S8192x1_S1x8192 (ix2 0 j) = scaleCol d (ix2 j 0) :=
  Cert.LibColumn.shapeCast_a1_1a_apply _ _ 0 j

/-! ## The bias rows -/

theorem biasRow1_apply (b : FVec Ideal S256 .f32) (p : Fin 256) : shapeCast S1x256 b shapeCasts_S256_S1x256 (ix2 0 p) = b (ix1 p) :=
  shapeCast_a_1a_apply _ _ 0 p
theorem biasRow2_apply (b : FVec Ideal S512 .f32) (q : Fin 512) : shapeCast S1x512 b shapeCasts_S512_S1x512 (ix2 0 q) = b (ix1 q) :=
  shapeCast_a_1a_apply _ _ 0 q

/-- The projection from the reshaped biases is the projection from the biases. -/
theorem featRow_eq (x : Mat 8192 512) (W1 : Mat 256 512) (b1 : Col 256) (W2 : Mat 512 256) (b2 : Col 512) (i : Fin 8192) (q : Fin 512) :
    featRow x W1 (shapeCast S1x256 b1 shapeCasts_S256_S1x256) W2 (shapeCast S1x512 b2 shapeCasts_S512_S1x512) i q = feat x W1 b1 W2 b2 i q := by
  unfold featRow feat hid
  rw [biasRow2_apply]
  refine congrArg (· + b2 (ix1 q)) (Finset.sum_congr rfl fun p _ => ?_)
  rw [biasRow1_apply]

end Cert.KernelIdeal.Hand

end
-- ==== Proof.KI.Compose.lean ====
/-
  From the three regions to the whole result. Given what each region's output array holds after its write-backs — the
  projection of the arrays it was handed, their row sums, their propagation —, the result array is the specification G
  of the six argument arrays: the features are the projection from the reshaped biases, the scale column and row are
  invSqrt of the row sum plus one at each row, and the adjacency matrix is the argument itself.
-/
import proofs.«135736_j29987461660874_1_alg».proof.Proof.KI.Glue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Gcn Idealize.ShloMosaic.ValueIdx

variable (m : (ℓ : Loc nD τ sig) → Buf (Elt Ideal) ℓ) (ρ : Dev nD → PrngReg) (c : Dev nD)

theorem out_eq_of
    (hh : (dat0 (F := Ideal) (V1 m ρ) c).arrAt 5 cfg0.N
      = fun j => featRow (V1 m ρ c main_arg0) (V1 m ρ c main_arg2) (V1 m ρ c main_v0) (V1 m ρ c main_arg4) (V1 m ρ c main_v1) (j 0) (j 1))
    (hr : (dat1 (F := Ideal) (V2 m ρ) c).arrAt 1 cfg1.N = fun j => rowSum (V2 m ρ c main_arg1) (j 0))
    (ho : (dat2 (F := Ideal) (V8 m ρ) c).arrAt 5 cfg2.N
      = fun j => propagate (V8 m ρ c main_arg1) (V8 m ρ c main_v2) (V8 m ρ c main_v9) (V8 m ρ c main_v10) (j 0) (j 1)) :
    (dat2 (F := Ideal) (V8 m ρ) c).arrAt 5 cfg2.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- the scale column, at each row
  have hsc : ∀ k : Fin 8192, V8 m ρ c main_v9 (ix2 k 0) = scale (m ((c : Thread nD τ).loc main_arg1)) k := fun k => by
    rw [V8_v9, scaleCol_apply, W3_v3, hr]
    show invSqrt (rowSum (V2 m ρ c main_arg1) k + 1) = _
    rw [V2_arg1]; rfl
  -- the scale row, at each column
  have hsr : ∀ k : Fin 8192, V8 m ρ c main_v10 (ix2 0 k) = scale (m ((c : Thread nD τ).loc main_arg1)) k := fun k => by
    rw [V8_v10, scaleRow_apply, scaleCol_apply, W3_v3, hr]
    show invSqrt (rowSum (V2 m ρ c main_arg1) k + 1) = _
    rw [V2_arg1]; rfl
  -- the features
  have hf : ∀ (k : Fin 8192) (q : Fin 512), V8 m ρ c main_v2 (ix2 k q) = feat (m ((c : Thread nD τ).loc main_arg0)) (m ((c : Thread nD τ).loc main_arg2)) (m ((c : Thread nD τ).loc main_arg3)) (m ((c : Thread nD τ).loc main_arg4)) (m ((c : Thread nD τ).loc main_arg5)) k q := fun k q => by
    rw [V8_v2, hh]
    show featRow (V1 m ρ c main_arg0) (V1 m ρ c main_arg2) (V1 m ρ c main_v0) (V1 m ρ c main_arg4) (V1 m ρ c main_v1) k q = _
    rw [V1_arg0, V1_arg2, V1_arg4, V1_v0, V1_v1]
    exact featRow_eq _ _ _ _ _ k q
  rw [ho]
  funext j
  obtain ⟨i, q, rfl⟩ : ∃ (i : Fin 8192) (q : Fin 512), j = ix2 i q := ⟨j 0, j 1, eq_ix2 j⟩
  show propagate (V8 m ρ c main_arg1) (V8 m ρ c main_v2) (V8 m ρ c main_v9) (V8 m ρ c main_v10) i q = outK _ _ _ _ _ _ i q
  unfold propagate outK
  rw [V8_arg1, hsc i, hf i q]
  refine congrArg (fun z => scale (m ((c : Thread nD τ).loc main_arg1)) i * z + (scale (m ((c : Thread nD τ).loc main_arg1)) i * scale (m ((c : Thread nD τ).loc main_arg1)) i) * feat (m ((c : Thread nD τ).loc main_arg0)) (m ((c : Thread nD τ).loc main_arg2)) (m ((c : Thread nD τ).loc main_arg3)) (m ((c : Thread nD τ).loc main_arg4)) (m ((c : Thread nD τ).loc main_arg5)) i q)
    (Finset.sum_congr rfl fun k _ => ?_)
  rw [hsr k, hf k q]

end Cert.KernelIdeal.Hand

end
-- ==== Proof.KI.ValOps.lean ====
/-
  Layout operations and contractions of the kernel bodies, read at an entry, at the extended reals.

  A plain m×k by k×n product into a zero accumulator is, at entry (a,b), the sum over the contracted coordinate of
  the products of the entries (zero is the identity of +). A lane sum of an a×b block is, at row r, the sum over the
  b lanes. A column [a] cast to [a,1] reads the same entry; a column [a,1] broadcast to [a,b] reads the row's one
  entry at every lane.
-/
import Idealize.ShloMosaic.Lib.StackMember
import Idealize.ShloMosaic.Lib.ValueLayout
import Idealize.ShloMosaic.Lib.Pipeline.Value
import Idealize.ShloMosaic.PureOps.Ideal.Laws

noncomputable section

open scoped BigOperators

namespace Cert.KernelIdeal.Hand.Ops

open Idealize.ShloMosaic Idealize.ShloMosaic.ValueIdx

/-- A plain matrix product into the zero accumulator, at an entry. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- A lane sum (reduction along axis 1 from the zero word) at row r is the sum over the lanes. -/
theorem laneSum_apply {a b : Nat} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ l : Fin b, src (ix2 r l) :=
  (Ideal.multiReduction_add_single src _ h hφ hacc (ix1 r)).trans
    (Finset.sum_congr rfl fun l _ => congrArg src (funext fun ax => Fin.ext (by
      match ax with
      | ⟨0, _⟩ => rfl
      | ⟨1, _⟩ => rfl)))

/-- An [a] array cast to [a,1] reads, at (i,u), the operand at i. -/
theorem shapeCast_a_a1_apply {α : Type} {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a,1] array broadcast to [a,b] reads, at (p,c), the operand's entry of row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Hand.Ops

end
-- ==== Proof.KI.Val0.lean ====
/-
  What the dense-projection region leaves in its output array.

  At grid point t the body stores, at entry (r,q) of its 1024 × 512 output block,
      Σ_p (Σ_k x[r,k]·W1[p,k] + b1[0,p])·W2[q,p] + b2[0,q]
  of its input blocks (two matrix products into zero accumulators, zero being the identity of +, the transposes only
  swapping the weights' coordinates, the bias rows broadcast along the rows). The x block of point t is rows
  1024·t … 1024·t + 1023 of x and the other four windows are whole arrays, so the stored block is block t of the
  whole-array function featRow; every point writes its block back and the eight blocks tile the 8192 rows.
-/
import proofs.«135736_j29987461660874_1_alg».proof.Proof.KI.Reg0
import proofs.«135736_j29987461660874_1_alg».proof.Proof.KI.ValOps
import proofs.«135736_j29987461660874_1_alg».proof.Proof.ValSpec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz2 : (![0, 0] : Fin 2 → Nat) = fun _ => 0 := funext fun a => by fin_cases a <;> rfl

/-- The two contractions of the body are plain matrix products. -/
theorem dot0a_eq : dot_S1024x512_S512x256_S1024x256_1_0_0_1_n_n = DotDims.plain 1024 512 256 := rfl
theorem dot0b_eq : dot_S1024x256_S256x512_S1024x512_1_0_0_1_n_n = DotDims.plain 1024 256 512 := rfl

/-- The body's stored value at entry (r,q), from its loaded blocks. -/
theorem pay0_apply (x0 : Vec Ideal S1024x512 .f32) (x1 : Vec Ideal S256x512 .f32) (x2 : Vec Ideal S1x256 .f32)
    (x3 : Vec Ideal S512x256 .f32) (x4 : Vec Ideal S1x512 .f32) (r : Fin 1024) (q : Fin 512) :
    k0_pay1 x0 x1 x2 x3 x4 (ix2 r q)
      = (∑ p : Fin 256, ((∑ k : Fin 512, x0 (ix2 r k) * x1 (ix2 p k)) + x2 (ix2 0 p)) * x3 (ix2 q p)) + x4 (ix2 0 q) := by
  unfold k0_pay1
  dsimp only
  simp only [shapeCast_self]
  rw [addf_apply, broadcastTo_1b_ab_apply, dot0b_eq]
  refine congrArg (· + x4 (ix2 0 q)) ?_
  refine (Ops.matmul_plain_zero_apply none _ _ r q).trans (Finset.sum_congr rfl fun p _ => ?_)
  rw [transpose_ix2_apply, addf_apply, broadcastTo_1b_ab_apply, dot0a_eq]
  refine congrArg (fun z => (z + x2 (ix2 0 p)) * x3 (ix2 q p)) ?_
  refine (Ops.matmul_plain_zero_apply none _ _ r p).trans (Finset.sum_congr rfl fun k _ => ?_)
  rw [transpose_ix2_apply]

/-- The same with the blocks named by what they hold of five whole arrays: the x block holds row i of x at its row r. -/
theorem point0 (A0 : (⟨2, ![8192, 512]⟩ : Shape).Idx → EReal) (A1 : (⟨2, ![256, 512]⟩ : Shape).Idx → EReal)
    (A2 : (⟨2, ![1, 256]⟩ : Shape).Idx → EReal) (A3 : (⟨2, ![512, 256]⟩ : Shape).Idx → EReal) (A4 : (⟨2, ![1, 512]⟩ : Shape).Idx → EReal)
    (x0 : Vec Ideal S1024x512 .f32) (x1 : Vec Ideal S256x512 .f32) (x2 : Vec Ideal S1x256 .f32)
    (x3 : Vec Ideal S512x256 .f32) (x4 : Vec Ideal S1x512 .f32) (r : Fin 1024) (q : Fin 512) (i : Fin 8192)
    (h0 : ∀ k : Fin 512, x0 (ix2 r k) = A0 (ix2 i k)) (h1 : x1 = A1) (h2 : x2 = A2) (h3 : x3 = A3) (h4 : x4 = A4) :
    k0_pay1 x0 x1 x2 x3 x4 (ix2 r q) = Cert.Gcn.featRow A0 A1 A2 A3 A4 i q := by
  subst h1 h2 h3 h4
  rw [pay0_apply]
  unfold Cert.Gcn.featRow
  simp only [h0]

/-! ## The index maps, decided over the grid -/

theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- The whole-array function the region's output ends holding. -/
abbrev G0 (c : Dev nD) : Buf (Elt Ideal) ((c : Thread nD τ).loc main_v2) :=
  fun j => Cert.Gcn.featRow (V c main_arg0) (V c main_arg2) (V c main_v0) (V c main_arg4) (V c main_v1) (j 0) (j 1)

/-- What point t writes back is block t of that function. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S1024x512) hz2, View.ld_unit_zero (S := S256x512) hz2, View.ld_unit_zero (S := S1x256) hz2,
    View.ld_unit_zero (S := S512x256) hz2, View.ld_unit_zero (S := S1x512) hz2]
  obtain ⟨e50, e51, e00, e01, e10, e11, e20, e21, e30, e31, e40, e41⟩ := idx_facts0 t
  refine funext fun (j : S1024x512.Idx) => ?_
  obtain ⟨r, q, rfl⟩ : ∃ (r : Fin 1024) (q : Fin 512), j = ix2 r q := ⟨j 0, j 1, eq_ix2 j⟩
  rw [View.read_apply]
  have hr : r.val < 1024 := r.isLt
  have hN : t.val < 8 := lt_of_lt_of_eq t.isLt N_0
  have hq : (((cfg0.win 5).blk t).view.emb (ix2 r q)) 1 = q := Fin.ext (by
    show win0_5.index t (1 : Fin 2) * 512 + 1 * q.val = q.val
    rw [e51]; omega)
  show k0_pay1 (iblk0 V c 0 t) (iblk0 V c 1 t) (iblk0 V c 2 t) (iblk0 V c 3 t) (iblk0 V c 4 t) (ix2 r q)
    = Cert.Gcn.featRow (V c main_arg0) (V c main_arg2) (V c main_v0) (V c main_arg4) (V c main_v1)
        ((((cfg0.win 5).blk t).view.emb (ix2 r q)) 0) ((((cfg0.win 5).blk t).view.emb (ix2 r q)) 1)
  rw [hq]
  refine point0 (V c main_arg0) (V c main_arg2) (V c main_v0) (V c main_arg4) (V c main_v1)
    (iblk0 V c 0 t) (iblk0 V c 1 t) (iblk0 V c 2 t) (iblk0 V c 3 t) (iblk0 V c 4 t) r q _ (fun k => ?_) ?_ ?_ ?_ ?_
  · show V c main_arg0 (((cfg0.win 0).blk t).view.emb (ix2 r k)) = V c main_arg0 (ix2 ((((cfg0.win 5).blk t).view.emb (ix2 r q)) 0) k)
    refine congrArg (V c main_arg0) (funext fun a => Fin.ext ?_)
    match a with
    | ⟨0, _⟩ => show win0_0.index t (0 : Fin 2) * 1024 + 1 * r.val = win0_5.index t (0 : Fin 2) * 1024 + 1 * r.val; rw [e00, e50]
    | ⟨1, _⟩ => show win0_0.index t (1 : Fin 2) * 512 + 1 * k.val = k.val; rw [e01]; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 256 + 1 * (y 0).val = (y 0).val; rw [e10]; omega
    | ⟨1, _⟩ => show win0_1.index t (1 : Fin 2) * 512 + 1 * (y 1).val = (y 1).val; rw [e11]; omega
  · funext y
    show V c main_v0 (((cfg0.win 2).blk t).view.emb y) = V c main_v0 y
    refine congrArg (V c main_v0) (funext fun a => Fin.ext ?_)
    match a with
    | ⟨0, _⟩ => show win0_2.index t (0 : Fin 2) * 1 + 1 * (y 0).val = (y 0).val; rw [e20]; omega
    | ⟨1, _⟩ => show win0_2.index t (1 : Fin 2) * 256 + 1 * (y 1).val = (y 1).val; rw [e21]; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 512 + 1 * (y 0).val = (y 0).val; rw [e30]; omega
    | ⟨1, _⟩ => show win0_3.index t (1 : Fin 2) * 256 + 1 * (y 1).val = (y 1).val; rw [e31]; omega
  · funext y
    show V c main_v1 (((cfg0.win 4).blk t).view.emb y) = V c main_v1 y
    refine congrArg (V c main_v1) (funext fun a => Fin.ext ?_)
    match a with
    | ⟨0, _⟩ => show win0_4.index t (0 : Fin 2) * 1 + 1 * (y 0).val = (y 0).val; rw [e40]; omega
    | ⟨1, _⟩ => show win0_4.index t (1 : Fin 2) * 512 + 1 * (y 1).val = (y 1).val; rw [e41]; omega

/-- An index of the array is in point t's block iff each coordinate is in the block's range on its axis. -/
theorem mem_blk0 (t : Fin cfg0.N) (i : S8192x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2).slice (win0_5.rect t)).set ↔ _
  rw [View.set_slice_whole, Rect.mem_set_unit]
  exact Iff.rfl

/-- Row i lies in the block of point i / 1024. -/
theorem cover0 (i : S8192x512.Idx) : ∃ t : Fin cfg0.N, (cfg0.win 5).flush t = true ∧ i ∈ ((cfg0.win 5).blk t).view.set := by
  have hi0 : (i 0).val < 8192 := (i 0).isLt
  have hi1 : (i 1).val < 512 := (i 1).isLt
  have hN : cfg0.N = 8 := N_0
  refine ⟨⟨(i 0).val / 1024, by rw [hN]; omega⟩, flush0_5 _, ?_⟩
  rw [mem_blk0]
  obtain ⟨e50, e51, -⟩ := idx_facts0 ⟨(i 0).val / 1024, by rw [hN]; omega⟩
  intro a
  match a with
  | ⟨0, _⟩ =>
    show win0_5.index _ (0 : Fin 2) * 1024 ≤ (i 0).val ∧ (i 0).val < win0_5.index _ (0 : Fin 2) * 1024 + 1024
    rw [e50]; dsimp only; omega
  | ⟨1, _⟩ =>
    show win0_5.index _ (1 : Fin 2) * 512 ≤ (i 1).val ∧ (i 1).val < win0_5.index _ (1 : Fin 2) * 512 + 512
    rw [e51]; omega

/-- The array the region's output window ends with. -/
theorem h_value (c : Dev nD) :
    (dat0 (F := Ideal) V c).arrAt 5 cfg0.N
      = fun j => Cert.Gcn.featRow (V c main_arg0) (V c main_arg2) (V c main_v0) (V c main_arg4) (V c main_v1) (j 0) (j 1) :=
  (dat0 (F := Ideal) V c).arrAt_eq_of_cover 5 (G0 V c) (fun t _ => flushed0_eq V c t) cover0

end Cert.KernelIdeal.Hand

end
-- ==== Proof.KI.ValSum.lean ====
/-
  A sum over 8192 indices is the sum of its four consecutive quarters of 2048, taken in order from zero: the form in
  which a grid of four column blocks accumulates a row.
-/
import Mathlib.Data.EReal.Basic
import Mathlib.Algebra.BigOperators.Fin

open scoped BigOperators

namespace Cert.KernelIdeal.Hand

theorem sum_quarters (f : Fin 8192 → EReal) :
    ∑ j : Fin 8192, f j
      = (((0 + ∑ l : Fin 2048, f ⟨l.val, by omega⟩) + ∑ l : Fin 2048, f ⟨2048 + l.val, by omega⟩)
          + ∑ l : Fin 2048, f ⟨4096 + l.val, by omega⟩) + ∑ l : Fin 2048, f ⟨6144 + l.val, by omega⟩ := by
  show ∑ j : Fin (2048 + 2048 + 2048 + 2048), f j = _
  rw [Fin.sum_univ_add, Fin.sum_univ_add, Fin.sum_univ_add, zero_add]
  rfl

end Cert.KernelIdeal.Hand
-- ==== Proof.KI.Val1.lean ====
/-
  What the row-sum region leaves in its output array.

  The grid is 8 × 4: point t = 4a + b handles the 1024 × 2048 block (a, b) of the adjacency matrix. A scratch column
  is reset to zero at b = 0, gains the block's lane sums at every b, and is copied to the output block at b = 3, the only
  points that write back. So the block written back at t = 4a + 3 holds, at row r,
      (((0 + Σ_l A[1024a + r, l]) + Σ_l A[1024a + r, 2048 + l]) + Σ_l A[1024a + r, 4096 + l]) + Σ_l A[1024a + r, 6144 + l],
  which is the sum over all 8192 columns (zero is the identity of +, and a sum over 8192 indices is the sum of its four
  consecutive quarters); the eight written blocks tile the 8192 rows.
-/
import proofs.«135736_j29987461660874_1_alg».proof.Proof.KI.Reg1
import proofs.«135736_j29987461660874_1_alg».proof.Proof.KI.ValOps
import proofs.«135736_j29987461660874_1_alg».proof.Proof.KI.ValSum
import proofs.«135736_j29987461660874_1_alg».proof.Proof.ValSpec
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Idealize.ShloMosaic.Tactic

theorem hz1 : (![0, 0] : Fin 2 → Nat) = fun _ => 0 := funext fun a => by fin_cases a <;> rfl

/-! ## What each case's stores leave, as the body's arithmetic of what was loaded (any float values) -/

section Pieces
variable {F : FTy → Type} [FloatOps F]

/-- At b = 0 the scratch ends at the lane sums added to the reset value. -/
theorem sout1_A_eq (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : cond1_0 i) (hc1 : ¬cond1_1 i) (x0 : Vec F S1024x2048 .f32) :
    sout1_A c i arg2 harg2 arg3 harg3 arg4 harg4 hc0 hc1 x0 = k1_pay2 (k1_pay1 (F := F)) x0 := by
  unfold sout1_A
  rw [View.read_writes_eq_canon _ _ _ (scover1_A c i arg2 harg2 arg3 harg3 arg4 harg4 hc0 hc1 x0)]
  unfold kernelRun1_A
  dsimp only
  sl_unfold_words
  rw [View.canon_cons_unit_zero (S := S1024x1) hz1, View.readCov_unit_zero (S := S1024x1) _ hz1]
  simp only [View.readAt_eq_ld, harg2.read_unread, View.ld_unit_zero (S := S1024x2048) hz1]

/-- At b = 1, 2 the scratch ends at the lane sums added to what it held. -/
theorem sout1_B_eq (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond1_0 i) (hc1 : ¬cond1_1 i) (x0 : Vec F S1024x2048 .f32) (xs0 : Vec F S1024x1 .f32) :
    sout1_B c i arg2 harg2 arg3 harg3 arg4 harg4 hc0 hc1 x0 xs0 = k1_pay2 xs0 x0 := by
  unfold sout1_B
  rw [View.read_writes_eq_canon _ _ _ (scover1_B c i arg2 harg2 arg3 harg3 arg4 harg4 hc0 hc1 x0 xs0)]
  unfold kernelRun1_B
  dsimp only
  sl_unfold_words
  rw [View.canon_unit_zero (S := S1024x1) hz1]
  simp only [View.readAt_eq_ld, harg2.read_unread, harg4.read_unread, View.ld_unit_zero (S := S1024x2048) hz1,
    View.ld_unit_zero (S := S1024x1) hz1]

/-- At b = 3 the scratch ends the same way, -/
theorem sout1_C_eq (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond1_0 i) (hc1 : cond1_1 i) (x0 : Vec F S1024x2048 .f32) (xs0 : Vec F S1024x1 .f32) :
    sout1_C c i arg2 harg2 arg3 harg3 arg4 harg4 hc0 hc1 x0 xs0 = k1_pay2 xs0 x0 := by
  unfold sout1_C
  rw [View.read_writes_eq_canon _ _ _ (scover1_C c i arg2 harg2 arg3 harg3 arg4 harg4 hc0 hc1 x0 xs0)]
  unfold kernelRun1_C
  dsimp only
  sl_unfold_words
  rw [View.canon_unit_zero (S := S1024x1) hz1]
  simp only [View.readAt_eq_ld, harg2.read_unread, harg4.read_unread, View.ld_unit_zero (S := S1024x2048) hz1,
    View.ld_unit_zero (S := S1024x1) hz1]

/-- and the output block is the scratch just written. -/
theorem out1_C_eq (c : Dev nD) (i : grid1.Coords) (arg2 : Memref sig .tc .vmem S1024x2048 .f32) (harg2 : arg2.IsWhole) (arg3 : Memref sig .tc .vmem S1024x1 .f32) (harg3 : arg3.IsWhole) (arg4 : Memref sig .tc .vmem S1024x1 .f32) (harg4 : arg4.IsWhole)
    (hc0 : ¬cond1_0 i) (hc1 : cond1_1 i) (x0 : Vec F S1024x2048 .f32) (xs0 : Vec F S1024x1 .f32) :
    out1_C c i arg2 harg2 arg3 harg3 arg4 harg4 hc0 hc1 x0 xs0 = k1_pay2 xs0 x0 := by
  unfold out1_C
  rw [View.read_writes_eq_canon _ _ _ (cover1_C c i arg2 harg2 arg3 harg3 arg4 harg4 hc0 hc1 x0 xs0)]
  unfold kernelRun1_C
  dsimp only
  sl_unfold_words
  rw [View.canon_unit_zero (S := S1024x1) hz1, View.readCov_unit_zero (S := S1024x1) _ hz1]
  simp only [View.readAt_eq_ld, harg2.read_unread, harg4.read_unread, View.ld_unit_zero (S := S1024x2048) hz1,
    View.ld_unit_zero (S := S1024x1) hz1]

end Pieces

/-! ## The body's arithmetic at an entry, at the extended reals -/

/-- The reset value is zero. -/
theorem pay1_zero (r : Fin 1024) : k1_pay1 (F := Ideal) (ix2 r (0 : Fin 1)) = 0 := by
  unfold k1_pay1
  rw [shapeCast_self]
  exact Ideal.ofBits_zero_f32

/-- One accumulation step: the scratch entry plus the block's lane sum of the row. -/
theorem pay1_acc (s : Vec Ideal S1024x1 .f32) (x : Vec Ideal S1024x2048 .f32) (r : Fin 1024) :
    k1_pay2 s x (ix2 r (0 : Fin 1)) = s (ix2 r (0 : Fin 1)) + ∑ l : Fin 2048, x (ix2 r l) := by
  unfold k1_pay2
  dsimp only
  rw [shapeCast_self, addf_apply]
  refine congrArg (s (ix2 r (0 : Fin 1)) + ·) ?_
  refine (Ops.shapeCast_a_a1_apply _ _ r 0).trans ?_
  exact Ops.laneSum_apply x _ _ _ r

/-! ## The index maps, decided over the grid -/

theorem idx_facts1 : ∀ t : Fin cfg1.N, win1_0.index t (0 : Fin 2) = t.val / 4 ∧ win1_0.index t (1 : Fin 2) = t.val % 4
    ∧ win1_1.index t (0 : Fin 2) = t.val / 4 ∧ win1_1.index t (1 : Fin 2) = 0 :=
  (by decide +kernel : ∀ t : Fin grid1.N, _)

variable (V : (c : Dev nD) → (b : Ref sig .tc) → Buf (Elt Ideal) ((c : Thread nD τ).loc b))

/-- The input block of point t holds, at (r,l), the adjacency matrix at row 1024·(t/4) + r, column 2048·(t%4) + l. -/
theorem blk1_read (c : Dev nD) (t : Fin cfg1.N) (r : Fin 1024) (l : Fin 2048) (i j : Fin 8192)
    (x : Vec Ideal S1024x2048 .f32) (hx : x = iblk1 V c 0 t)
    (hi : i.val = 1024 * (t.val / 4) + r.val) (hj : j.val = 2048 * (t.val % 4) + l.val) :
    x (ix2 r l) = V c main_arg1 (ix2 i j) := by
  subst hx
  obtain ⟨e00, e01, -, -⟩ := idx_facts1 t
  show V c main_arg1 (((cfg1.win 0).blk t).view.emb (ix2 r l)) = V c main_arg1 (ix2 i j)
  refine congrArg (V c main_arg1) (funext fun a => Fin.ext ?_)
  match a with
  | ⟨0, _⟩ => show win1_0.index t (0 : Fin 2) * 1024 + 1 * r.val = i.val; rw [e00, hi]; omega
  | ⟨1, _⟩ => show win1_0.index t (1 : Fin 2) * 2048 + 1 * l.val = j.val; rw [e01, hj]; omega

/-! ## The scratch after a point, at an entry, from the scratch before -/

theorem scr1_A (c : Dev nD) (t : Fin cfg1.N) (h0 : t.val % 4 = 0) (r : Fin 1024)
    (x : Vec Ideal S1024x2048 .f32) (hx : x = iblk1 V c 0 t) :
    (outsAt1 (F := Ideal) V c t.val t.isLt).2 (ix2 r (0 : Fin 1)) = 0 + ∑ l : Fin 2048, x (ix2 r l) := by
  subst hx
  have h1 : ¬t.val % 4 = 3 := by omega
  rw [outsAt1_A V c t h0 h1]
  dsimp only
  refine (congrFun (sout1_A_eq c (grid1.coords t) (ms1_0 t) (hs1_0 t) (ms1_1 t) (hs1_1 t) scM1 (Memref.isWhole_whole _) _ _ (iblk1 V c 0 t)) (ix2 r (0 : Fin 1))).trans ?_
  refine (pay1_acc (k1_pay1 (F := Ideal)) (iblk1 V c 0 t) r).trans ?_
  rw [pay1_zero]

theorem scr1_B (c : Dev nD) (t : Fin cfg1.N) (h0 : ¬t.val % 4 = 0) (h1 : ¬t.val % 4 = 3) (r : Fin 1024)
    (x : Vec Ideal S1024x2048 .f32) (hx : x = iblk1 V c 0 t) :
    (outsAt1 (F := Ideal) V c t.val t.isLt).2 (ix2 r (0 : Fin 1))
      = (outsAt1 (F := Ideal) V c (t.val - 1) (Nat.lt_of_le_of_lt (Nat.sub_le _ _) t.isLt)).2 (ix2 r (0 : Fin 1))
        + ∑ l : Fin 2048, x (ix2 r l) := by
  subst hx
  rw [outsAt1_B V c t h0 h1]
  dsimp only
  refine (congrFun (sout1_B_eq c (grid1.coords t) (ms1_0 t) (hs1_0 t) (ms1_1 t) (hs1_1 t) scM1 (Memref.isWhole_whole _) _ _ (iblk1 V c 0 t)
    (outsAt1 (F := Ideal) V c (t.val - 1) (Nat.lt_of_le_of_lt (Nat.sub_le _ _) t.isLt)).2) (ix2 r (0 : Fin 1))).trans ?_
  exact pay1_acc _ (iblk1 V c 0 t) r

theorem out1_C_at (c : Dev nD) (t : Fin cfg1.N) (h0 : ¬t.val % 4 = 0) (h1 : t.val % 4 = 3) (r : Fin 1024)
    (x : Vec Ideal S1024x2048 .f32) (hx : x = iblk1 V c 0 t) :
    (outsAt1 (F := Ideal) V c t.val t.isLt).1 (ix2 r (0 : Fin 1))
      = (outsAt1 (F := Ideal) V c (t.val - 1) (Nat.lt_of_le_of_lt (Nat.sub_le _ _) t.isLt)).2 (ix2 r (0 : Fin 1))
        + ∑ l : Fin 2048, x (ix2 r l) := by
  subst hx
  rw [outsAt1_C V c t h0 h1]
  dsimp only
  refine (congrFun (out1_C_eq c (grid1.coords t) (ms1_0 t) (hs1_0 t) (ms1_1 t) (hs1_1 t) scM1 (Memref.isWhole_whole _) _ _ (iblk1 V c 0 t)
    (outsAt1 (F := Ideal) V c (t.val - 1) (Nat.lt_of_le_of_lt (Nat.sub_le _ _) t.isLt)).2) (ix2 r (0 : Fin 1))).trans ?_
  exact pay1_acc _ (iblk1 V c 0 t) r

/-! ## The written block, the cover, the array -/

/-- The whole-array function the region's output ends holding. -/
abbrev G1 (c : Dev nD) : Buf (Elt Ideal) ((c : Thread nD τ).loc main_v3) :=
  fun j => Cert.Gcn.rowSum (V c main_arg1) (j 0)

/-- The output block after a point with b = 3, at row r: the whole row sum of row 1024·(t/4) + r. -/
theorem out1_row (c : Dev nD) (t : Fin cfg1.N) (h3 : t.val % 4 = 3) (r : Fin 1024) (i : Fin 8192)
    (hi : i.val = 1024 * (t.val / 4) + r.val) :
    (outsAt1 (F := Ideal) V c t.val t.isLt).1 (ix2 r (0 : Fin 1)) = Cert.Gcn.rowSum (V c main_arg1) i := by
  have hN : cfg1.N = 32 := N_1
  have ht : t.val < 32 := lt_of_lt_of_eq t.isLt hN
  have e3 := out1_C_at V c t (by omega) h3 r _ rfl
  have e2 := scr1_B V c ⟨t.val - 1, by omega⟩ (by dsimp only; omega) (by dsimp only; omega) r _ rfl
  have e1 := scr1_B V c ⟨t.val - 1 - 1, by omega⟩ (by dsimp only; omega) (by dsimp only; omega) r _ rfl
  have e0 := scr1_A V c ⟨t.val - 1 - 1 - 1, by omega⟩ (by dsimp only; omega) r _ rfl
  dsimp only at e2 e1 e0
  rw [e3, e2, e1, e0]
  unfold Cert.Gcn.rowSum
  rw [sum_quarters]
  refine congrArg₂ (· + ·) (congrArg₂ (· + ·) (congrArg₂ (· + ·) (congrArg (0 + ·) (Finset.sum_congr rfl fun l _ => ?_))
    (Finset.sum_congr rfl fun l _ => ?_)) (Finset.sum_congr rfl fun l _ => ?_)) (Finset.sum_congr rfl fun l _ => ?_)
  · exact blk1_read V c ⟨t.val - 1 - 1 - 1, by omega⟩ r l i _ _ rfl (by dsimp only; omega) (by dsimp only; omega)
  · exact blk1_read V c ⟨t.val - 1 - 1, by omega⟩ r l i _ _ rfl (by dsimp only; omega) (by dsimp only; omega)
  · exact blk1_read V c ⟨t.val - 1, by omega⟩ r l i _ _ rfl (by dsimp only; omega) (by dsimp only; omega)
  · exact blk1_read V c t r l i _ _ rfl (by omega) (by dsimp only; omega)

/-- What a writing point writes back is its block of that function. -/
theorem flushed1_eq (c : Dev nD) (t : Fin cfg1.N) (hf : (cfg1.win 1).flush t = true) :
    (dat1 (F := Ideal) V c).flushed 1 t = ((cfg1.win 1).blk t).view.read (Elt Ideal) (G1 V c) := by
  have h3 : t.val % 4 = 3 := (flush1_1 t).mp hf
  obtain ⟨-, -, e10, e11⟩ := idx_facts1 t
  show (cfg1.win 1).cut (grid1.coords t) ((dat1 V c).after 1 t) = _
  rw [after1_1]
  refine funext fun (j : S1024x1.Idx) => ?_
  obtain ⟨r, u, rfl⟩ : ∃ (r : Fin 1024) (u : Fin 1), j = ix2 r u := ⟨j 0, j 1, eq_ix2 j⟩
  obtain rfl : u = 0 := Subsingleton.elim _ _
  rw [View.read_apply]
  show (outsAt1 (F := Ideal) V c t.val t.isLt).1 (ix2 r (0 : Fin 1))
    = Cert.Gcn.rowSum (V c main_arg1) ((((cfg1.win 1).blk t).view.emb (ix2 r (0 : Fin 1))) 0)
  refine out1_row V c t h3 r _ ?_
  show win1_1.index t (0 : Fin 2) * 1024 + 1 * r.val = 1024 * (t.val / 4) + r.val
  rw [e10]; omega

theorem mem_blk1 (t : Fin cfg1.N) (i : S8192x1.Idx) :
    i ∈ ((cfg1.win 1).blk t).view.set ↔ ∀ a : Fin 2, win1_1.index t a * S1024x1.size a ≤ (i a).val ∧ (i a).val < win1_1.index t a * S1024x1.size a + S1024x1.size a := by
  show i ∈ ((View.whole main_v3).slice (win1_1.rect t)).set ↔ _
  rw [View.set_slice_whole, Rect.mem_set_unit]
  exact Iff.rfl

/-- Row i lies in the block written at point 4·(i / 1024) + 3. -/
theorem cover1 (i : S8192x1.Idx) : ∃ t : Fin cfg1.N, (cfg1.win 1).flush t = true ∧ i ∈ ((cfg1.win 1).blk t).view.set := by
  have hi0 : (i 0).val < 8192 := (i 0).isLt
  have hi1 : (i 1).val < 1 := (i 1).isLt
  have hN : cfg1.N = 32 := N_1
  refine ⟨⟨4 * ((i 0).val / 1024) + 3, by rw [hN]; omega⟩, (flush1_1 _).mpr (by dsimp only; omega), ?_⟩
  rw [mem_blk1]
  obtain ⟨-, -, e10, e11⟩ := idx_facts1 ⟨4 * ((i 0).val / 1024) + 3, by rw [hN]; omega⟩
  intro a
  match a with
  | ⟨0, _⟩ =>
    show win1_1.index _ (0 : Fin 2) * 1024 ≤ (i 0).val ∧ (i 0).val < win1_1.index _ (0 : Fin 2) * 1024 + 1024
    rw [e10]; dsimp only; omega
  | ⟨1, _⟩ =>
    show win1_1.index _ (1 : Fin 2) * 1 ≤ (i 1).val ∧ (i 1).val < win1_1.index _ (1 : Fin 2) * 1 + 1
    rw [e11]; omega

/-- The array the region's output window ends with. -/
theorem rowsum_value (c : Dev nD) :
    (dat1 (F := Ideal) V c).arrAt 1 cfg1.N = fun j => Cert.Gcn.rowSum (V c main_arg1) (j 0) :=
  (dat1 (F := Ideal) V c).arrAt_eq_of_cover 1 (G1 V c) (flushed1_eq V c) cover1

end Cert.KernelIdeal.Hand

end
-- ==== Proof.KI.Val2.lean ====
/-
  What the propagation region leaves in its output array.

  The grid is 8 × 4: point t = 4a + b handles the 1024 × 2048 block (a, b) of the adjacency matrix, the matching 2048
  rows of h and 2048 entries of the scale row. A scratch block is reset to zero at b = 0 and gains, at every b,
      Σ_l (A[r,l]·sr[0,l])·h[l,q]
  over the block's 2048 columns (the scaling of the columns, the two roundings to a narrower format, which are the
  identity here, and a matrix product into a zero accumulator). At b = 3 the output block is
      sc[r,0]·scratch[r,q] + (sc[r,0]·sc[r,0])·h[1024a + r, q].
  The scratch at b = 3 is the sum over all 8192 columns (zero is the identity of +, and a sum over 8192 indices is the
  sum of its four consecutive quarters), so the written block is block a of the whole-array function propagate; the
  eight written blocks tile the 8192 rows.
-/
import proofs.«135736_j29987461660874_1_alg».proof.Proof.KI.Reg2
import proofs.«135736_j29987461660874_1_alg».proof.Proof.KI.ValOps
import proofs.«135736_j29987461660874_1_alg».proof.Proof.KI.ValSum
import proofs.«135736_j29987461660874_1_alg».proof.Proof.ValSpec
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Idealize.ShloMosaic.Tactic

theorem hz2z : (![0, 0] : Fin 2 → Nat) = fun _ => 0 := funext fun a => by fin_cases a <;> rfl

/-! ## What each case's stores leave, as the body's arithmetic of what was loaded (any float values) -/

section Pieces
variable {F : FTy → Type} [FloatOps F]

/-- At b = 0 the scratch ends at the block product added to the reset value. -/
theorem sout2_A_eq (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)
    (hc0 : cond2_0 i) (hc1 : ¬cond2_1 i) (x0 : Vec F S1024x2048 .f32) (x1 : Vec F S2048x512 .f32) (x4 : Vec F S1x2048 .f32) :
    sout2_A c i arg2 harg2 arg3 harg3 arg4 harg4 arg5 harg5 arg6 harg6 arg7 harg7 arg8 harg8 hc0 hc1 x0 x1 x4 = k2_pay2 x0 x4 x1 (k2_pay1 (F := F)) := by
  unfold sout2_A
  rw [View.read_writes_eq_canon _ _ _ (scover2_A c i arg2 harg2 arg3 harg3 arg4 harg4 arg5 harg5 arg6 harg6 arg7 harg7 arg8 harg8 hc0 hc1 x0 x1 x4)]
  unfold kernelRun2_A
  dsimp only
  sl_unfold_words
  rw [View.canon_cons_unit_zero (S := S1024x512) hz2z, View.readCov_unit_zero (S := S1024x512) _ hz2z]
  simp only [View.readAt_eq_ld, harg2.read_unread, harg3.read_unread, harg6.read_unread, View.ld_unit_zero (S := S1024x2048) hz2z,
    View.ld_unit_zero (S := S2048x512) hz2z, View.ld_unit_zero (S := S1x2048) hz2z]

/-- At b = 1, 2 the scratch ends at the block product added to what it held. -/
theorem sout2_B_eq (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)
    (hc0 : ¬cond2_0 i) (hc1 : ¬cond2_1 i) (x0 : Vec F S1024x2048 .f32) (x1 : Vec F S2048x512 .f32) (x4 : Vec F S1x2048 .f32)
    (xs0 : Vec F S1024x512 .f32) :
    sout2_B c i arg2 harg2 arg3 harg3 arg4 harg4 arg5 harg5 arg6 harg6 arg7 harg7 arg8 harg8 hc0 hc1 x0 x1 x4 xs0 = k2_pay2 x0 x4 x1 xs0 := by
  unfold sout2_B
  rw [View.read_writes_eq_canon _ _ _ (scover2_B c i arg2 harg2 arg3 harg3 arg4 harg4 arg5 harg5 arg6 harg6 arg7 harg7 arg8 harg8 hc0 hc1 x0 x1 x4 xs0)]
  unfold kernelRun2_B
  dsimp only
  sl_unfold_words
  rw [View.canon_unit_zero (S := S1024x512) hz2z]
  simp only [View.readAt_eq_ld, harg2.read_unread, harg3.read_unread, harg6.read_unread, harg8.read_unread,
    View.ld_unit_zero (S := S1024x2048) hz2z, View.ld_unit_zero (S := S2048x512) hz2z, View.ld_unit_zero (S := S1x2048) hz2z,
    View.ld_unit_zero (S := S1024x512) hz2z]

/-- At b = 3 the output block is the closing combination of the scale column, the scratch just written and the row block of h. -/
theorem out2_C_eq (c : Dev nD) (i : grid2.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1x2048 .f32) (harg6 : arg6.IsWhole) (arg7 : Memref sig .tc .vmem S1024x512 .f32) (harg7 : arg7.IsWhole) (arg8 : Memref sig .tc .vmem S1024x512 .f32) (harg8 : arg8.IsWhole)
    (hc0 : ¬cond2_0 i) (hc1 : cond2_1 i) (x0 : Vec F S1024x2048 .f32) (x1 : Vec F S2048x512 .f32) (x2 : Vec F S1024x512 .f32)
    (x3 : Vec F S1024x1 .f32) (x4 : Vec F S1x2048 .f32) (xs0 : Vec F S1024x512 .f32) :
    out2_C c i arg2 harg2 arg3 harg3 arg4 harg4 arg5 harg5 arg6 harg6 arg7 harg7 arg8 harg8 hc0 hc1 x0 x1 x2 x3 x4 xs0 = k2_pay3 x3 (k2_pay2 x0 x4 x1 xs0) x2 := by
  unfold out2_C
  rw [View.read_writes_eq_canon _ _ _ (cover2_C c i arg2 harg2 arg3 harg3 arg4 harg4 arg5 harg5 arg6 harg6 arg7 harg7 arg8 harg8 hc0 hc1 x0 x1 x2 x3 x4 xs0)]
  unfold kernelRun2_C
  dsimp only
  sl_unfold_words
  rw [View.canon_unit_zero (S := S1024x512) hz2z, View.readCov_unit_zero (S := S1024x512) _ hz2z]
  simp only [View.readAt_eq_ld, harg2.read_unread, harg3.read_unread, harg4.read_unread, harg5.read_unread, harg6.read_unread,
    harg8.read_unread, View.ld_unit_zero (S := S1024x2048) hz2z, View.ld_unit_zero (S := S2048x512) hz2z,
    View.ld_unit_zero (S := S1x2048) hz2z, View.ld_unit_zero (S := S1024x512) hz2z, View.ld_unit_zero (S := S1024x1) hz2z]

end Pieces

/-! ## The body's arithmetic at an entry, at the extended reals -/

theorem dot2_eq : dot_S1024x2048_S2048x512_S1024x512_1_0_0_1_n_n = DotDims.plain 1024 2048 512 := rfl

/-- The reset value is zero. -/
theorem pay2_zero (r : Fin 1024) (q : Fin 512) : k2_pay1 (F := Ideal) (ix2 r q) = 0 := by
  unfold k2_pay1
  rw [shapeCast_self]
  exact Ideal.ofBits_zero_f32

/-- One accumulation step: the scratch entry plus the block's scaled product at the entry. -/
theorem pay2_acc (a : Vec Ideal S1024x2048 .f32) (sr : Vec Ideal S1x2048 .f32) (h : Vec Ideal S2048x512 .f32)
    (acc : Vec Ideal S1024x512 .f32) (r : Fin 1024) (q : Fin 512) :
    k2_pay2 a sr h acc (ix2 r q) = acc (ix2 r q) + ∑ l : Fin 2048, (a (ix2 r l) * sr (ix2 0 l)) * h (ix2 l q) := by
  unfold k2_pay2
  simp only [shapeCast_self]
  rw [addf_apply, dot2_eq]
  refine congrArg (acc (ix2 r q) + ·) ?_
  refine (Ops.matmul_plain_zero_apply none _ _ r q).trans (Finset.sum_congr rfl fun l _ => ?_)
  rw [truncf_apply, truncf_apply, mulf_apply, broadcastTo_1b_ab_apply]

/-- The closing combination at an entry. -/
theorem pay2_fin (sc : Vec Ideal S1024x1 .f32) (acc hi : Vec Ideal S1024x512 .f32) (r : Fin 1024) (q : Fin 512) :
    k2_pay3 sc acc hi (ix2 r q)
      = sc (ix2 r (0 : Fin 1)) * acc (ix2 r q) + (sc (ix2 r (0 : Fin 1)) * sc (ix2 r (0 : Fin 1))) * hi (ix2 r q) := by
  unfold k2_pay3
  simp only [shapeCast_self]
  rw [addf_apply, mulf_apply, mulf_apply, Ops.broadcastTo_a1_ab_apply, Ops.broadcastTo_a1_ab_apply, mulf_apply]

/-! ## The index maps, decided over the grid -/

theorem idx_facts2 : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ win2_4.index t (0 : Fin 2) = 0 ∧ win2_4.index t (1 : Fin 2) = t.val % 4
    ∧ win2_5.index t (0 : Fin 2) = t.val / 4 ∧ win2_5.index t (1 : Fin 2) = 0 :=
  (by decide +kernel : ∀ t : Fin grid2.N, _)

variable (V : (c : Dev nD) → (b : Ref sig .tc) → Buf (Elt Ideal) ((c : Thread nD τ).loc b))

/-- One term of a point's block product, from the three blocks the point holds, is the whole arrays' term at row
    1024·(t/4) + r and column 2048·(t%4) + l. -/
theorem term2_read (c : Dev nD) (t : Fin cfg2.N) (r : Fin 1024) (l : Fin 2048) (q : Fin 512) (i j : Fin 8192)
    (x0 : Vec Ideal S1024x2048 .f32) (hx0 : x0 = iblk2 V c 0 t) (x1 : Vec Ideal S2048x512 .f32) (hx1 : x1 = iblk2 V c 1 t)
    (x4 : Vec Ideal S1x2048 .f32) (hx4 : x4 = iblk2 V c 4 t)
    (A : (⟨2, ![8192, 8192]⟩ : Shape).Idx → EReal) (hA : A = V c main_arg1)
    (H : (⟨2, ![8192, 512]⟩ : Shape).Idx → EReal) (hH : H = V c main_v2)
    (SR : (⟨2, ![1, 8192]⟩ : Shape).Idx → EReal) (hSR : SR = V c main_v10)
    (hi : i.val = 1024 * (t.val / 4) + r.val) (hj : j.val = 2048 * (t.val % 4) + l.val) :
    (x0 (ix2 r l) * x4 (ix2 0 l)) * x1 (ix2 l q) = (A (ix2 i j) * SR (ix2 0 j)) * H (ix2 j q) := by
  subst hx0 hx1 hx4
  obtain ⟨e00, e01, e10, e11, -, -, -, -, e40, e41, -, -⟩ := idx_facts2 t
  have a0 : (iblk2 V c 0 t : Vec Ideal S1024x2048 .f32) (ix2 r l) = A (ix2 i j) := by
    rw [hA]
    show V c main_arg1 (((cfg2.win 0).blk t).view.emb (ix2 r l)) = V c main_arg1 (ix2 i j)
    refine congrArg (V c main_arg1) (funext fun a => Fin.ext ?_)
    match a with
    | ⟨0, _⟩ => show win2_0.index t (0 : Fin 2) * 1024 + 1 * r.val = i.val; rw [e00, hi]; omega
    | ⟨1, _⟩ => show win2_0.index t (1 : Fin 2) * 2048 + 1 * l.val = j.val; rw [e01, hj]; omega
  have a4 : (iblk2 V c 4 t : Vec Ideal S1x2048 .f32) (ix2 0 l) = SR (ix2 0 j) := by
    rw [hSR]
    show V c main_v10 (((cfg2.win 4).blk t).view.emb (ix2 0 l)) = V c main_v10 (ix2 0 j)
    refine congrArg (V c main_v10) (funext fun a => Fin.ext ?_)
    match a with
    | ⟨0, _⟩ => show win2_4.index t (0 : Fin 2) * 1 + 1 * 0 = 0; rw [e40]
    | ⟨1, _⟩ => show win2_4.index t (1 : Fin 2) * 2048 + 1 * l.val = j.val; rw [e41, hj]; omega
  have a1 : (iblk2 V c 1 t : Vec Ideal S2048x512 .f32) (ix2 l q) = H (ix2 j q) := by
    rw [hH]
    show V c main_v2 (((cfg2.win 1).blk t).view.emb (ix2 l q)) = V c main_v2 (ix2 j q)
    refine congrArg (V c main_v2) (funext fun a => Fin.ext ?_)
    match a with
    | ⟨0, _⟩ => show win2_1.index t (0 : Fin 2) * 2048 + 1 * l.val = j.val; rw [e10, hj]; omega
    | ⟨1, _⟩ => show win2_1.index t (1 : Fin 2) * 512 + 1 * q.val = q.val; rw [e11]; omega
  rw [a0, a4, a1]

/-! ## The scratch after a point, at an entry, from the scratch before -/

theorem scr2_A (c : Dev nD) (t : Fin cfg2.N) (h0 : t.val % 4 = 0) (r : Fin 1024) (q : Fin 512)
    (x0 : Vec Ideal S1024x2048 .f32) (hx0 : x0 = iblk2 V c 0 t) (x1 : Vec Ideal S2048x512 .f32) (hx1 : x1 = iblk2 V c 1 t)
    (x4 : Vec Ideal S1x2048 .f32) (hx4 : x4 = iblk2 V c 4 t) :
    (outsAt2 (F := Ideal) V c t.val t.isLt).2 (ix2 r q)
      = 0 + ∑ l : Fin 2048, (x0 (ix2 r l) * x4 (ix2 0 l)) * x1 (ix2 l q) := by
  subst hx0 hx1 hx4
  have h1 : ¬t.val % 4 = 3 := by omega
  rw [outsAt2_A V c t h0 h1]
  dsimp only
  refine (congrFun (sout2_A_eq c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) _ _ (iblk2 V c 0 t) (iblk2 V c 1 t) (iblk2 V c 4 t)) (ix2 r q)).trans ?_
  refine (pay2_acc (iblk2 V c 0 t) (iblk2 V c 4 t) (iblk2 V c 1 t) (k2_pay1 (F := Ideal)) r q).trans ?_
  rw [pay2_zero]

theorem scr2_B (c : Dev nD) (t : Fin cfg2.N) (h0 : ¬t.val % 4 = 0) (h1 : ¬t.val % 4 = 3) (r : Fin 1024) (q : Fin 512)
    (x0 : Vec Ideal S1024x2048 .f32) (hx0 : x0 = iblk2 V c 0 t) (x1 : Vec Ideal S2048x512 .f32) (hx1 : x1 = iblk2 V c 1 t)
    (x4 : Vec Ideal S1x2048 .f32) (hx4 : x4 = iblk2 V c 4 t) :
    (outsAt2 (F := Ideal) V c t.val t.isLt).2 (ix2 r q)
      = (outsAt2 (F := Ideal) V c (t.val - 1) (Nat.lt_of_le_of_lt (Nat.sub_le _ _) t.isLt)).2 (ix2 r q) + ∑ l : Fin 2048, (x0 (ix2 r l) * x4 (ix2 0 l)) * x1 (ix2 l q) := by
  subst hx0 hx1 hx4
  rw [outsAt2_B V c t h0 h1]
  dsimp only
  refine (congrFun (sout2_B_eq c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) _ _ (iblk2 V c 0 t) (iblk2 V c 1 t) (iblk2 V c 4 t)
    (outsAt2 (F := Ideal) V c (t.val - 1) (Nat.lt_of_le_of_lt (Nat.sub_le _ _) t.isLt)).2) (ix2 r q)).trans ?_
  exact pay2_acc (iblk2 V c 0 t) (iblk2 V c 4 t) (iblk2 V c 1 t) _ r q

theorem out2_C_at (c : Dev nD) (t : Fin cfg2.N) (h0 : ¬t.val % 4 = 0) (h1 : t.val % 4 = 3) (r : Fin 1024) (q : Fin 512)
    (x0 : Vec Ideal S1024x2048 .f32) (hx0 : x0 = iblk2 V c 0 t) (x1 : Vec Ideal S2048x512 .f32) (hx1 : x1 = iblk2 V c 1 t)
    (x2 : Vec Ideal S1024x512 .f32) (hx2 : x2 = iblk2 V c 2 t) (x3 : Vec Ideal S1024x1 .f32) (hx3 : x3 = iblk2 V c 3 t)
    (x4 : Vec Ideal S1x2048 .f32) (hx4 : x4 = iblk2 V c 4 t) :
    (outsAt2 (F := Ideal) V c t.val t.isLt).1 (ix2 r q)
      = x3 (ix2 r (0 : Fin 1)) * ((outsAt2 (F := Ideal) V c (t.val - 1) (Nat.lt_of_le_of_lt (Nat.sub_le _ _) t.isLt)).2 (ix2 r q) + ∑ l : Fin 2048, (x0 (ix2 r l) * x4 (ix2 0 l)) * x1 (ix2 l q))
        + (x3 (ix2 r (0 : Fin 1)) * x3 (ix2 r (0 : Fin 1))) * x2 (ix2 r q) := by
  subst hx0 hx1 hx2 hx3 hx4
  rw [outsAt2_C V c t h0 h1]
  dsimp only
  refine (congrFun (out2_C_eq c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) _ _ (iblk2 V c 0 t) (iblk2 V c 1 t) (iblk2 V c 2 t) (iblk2 V c 3 t) (iblk2 V c 4 t)
    (outsAt2 (F := Ideal) V c (t.val - 1) (Nat.lt_of_le_of_lt (Nat.sub_le _ _) t.isLt)).2) (ix2 r q)).trans ?_
  refine (pay2_fin (iblk2 V c 3 t) _ (iblk2 V c 2 t) r q).trans ?_
  rw [pay2_acc]

/-! ## The written block, the cover, the array -/

/-- The whole-array function the region's output ends holding. -/
abbrev G2 (c : Dev nD) : Buf (Elt Ideal) ((c : Thread nD τ).loc main_v11) :=
  fun j => Cert.Gcn.propagate (V c main_arg1) (V c main_v2) (V c main_v9) (V c main_v10) (j 0) (j 1)

/-- The output block after a point with b = 3, at entry (r,q): the propagation of row 1024·(t/4) + r. -/
theorem out2_row (c : Dev nD) (t : Fin cfg2.N) (h3 : t.val % 4 = 3) (r : Fin 1024) (q : Fin 512) (i : Fin 8192)
    (hi : i.val = 1024 * (t.val / 4) + r.val)
    (A : (⟨2, ![8192, 8192]⟩ : Shape).Idx → EReal) (hA : A = V c main_arg1)
    (H : (⟨2, ![8192, 512]⟩ : Shape).Idx → EReal) (hH : H = V c main_v2)
    (SC : (⟨2, ![8192, 1]⟩ : Shape).Idx → EReal) (hSC : SC = V c main_v9)
    (SR : (⟨2, ![1, 8192]⟩ : Shape).Idx → EReal) (hSR : SR = V c main_v10) :
    (outsAt2 (F := Ideal) V c t.val t.isLt).1 (ix2 r q) = Cert.Gcn.propagate A H SC SR i q := by
  have hN : cfg2.N = 32 := N_2
  have ht : t.val < 32 := lt_of_lt_of_eq t.isLt hN
  obtain ⟨-, -, -, -, e20, e21, e30, e31, -, -, -, -⟩ := idx_facts2 t
  have e3 := out2_C_at V c t (by omega) h3 r q _ rfl _ rfl _ rfl _ rfl _ rfl
  have e2 := scr2_B V c ⟨t.val - 1, by omega⟩ (by dsimp only; omega) (by dsimp only; omega) r q _ rfl _ rfl _ rfl
  have e1 := scr2_B V c ⟨t.val - 1 - 1, by omega⟩ (by dsimp only; omega) (by dsimp only; omega) r q _ rfl _ rfl _ rfl
  have e0 := scr2_A V c ⟨t.val - 1 - 1 - 1, by omega⟩ (by dsimp only; omega) r q _ rfl _ rfl _ rfl
  dsimp only at e2 e1 e0
  rw [e3, e2, e1, e0]
  unfold Cert.Gcn.propagate
  rw [sum_quarters]
  have hsc : (iblk2 V c 3 t : Vec Ideal S1024x1 .f32) (ix2 r (0 : Fin 1)) = SC (ix2 i (0 : Fin 1)) := by
    rw [hSC]
    show V c main_v9 (((cfg2.win 3).blk t).view.emb (ix2 r (0 : Fin 1))) = V c main_v9 (ix2 i (0 : Fin 1))
    refine congrArg (V c main_v9) (funext fun a => Fin.ext ?_)
    match a with
    | ⟨0, _⟩ => show win2_3.index t (0 : Fin 2) * 1024 + 1 * r.val = i.val; rw [e30, hi]; omega
    | ⟨1, _⟩ => show win2_3.index t (1 : Fin 2) * 1 + 1 * 0 = 0; rw [e31]
  have hh : (iblk2 V c 2 t : Vec Ideal S1024x512 .f32) (ix2 r q) = H (ix2 i q) := by
    rw [hH]
    show V c main_v2 (((cfg2.win 2).blk t).view.emb (ix2 r q)) = V c main_v2 (ix2 i q)
    refine congrArg (V c main_v2) (funext fun a => Fin.ext ?_)
    match a with
    | ⟨0, _⟩ => show win2_2.index t (0 : Fin 2) * 1024 + 1 * r.val = i.val; rw [e20, hi]; omega
    | ⟨1, _⟩ => show win2_2.index t (1 : Fin 2) * 512 + 1 * q.val = q.val; rw [e21]; omega
  rw [hsc, hh]
  refine congrArg (fun z => SC (ix2 i (0 : Fin 1)) * z + (SC (ix2 i (0 : Fin 1)) * SC (ix2 i (0 : Fin 1))) * H (ix2 i q)) ?_
  refine congrArg₂ (· + ·) (congrArg₂ (· + ·) (congrArg₂ (· + ·) (congrArg (0 + ·) (Finset.sum_congr rfl fun l _ => ?_))
    (Finset.sum_congr rfl fun l _ => ?_)) (Finset.sum_congr rfl fun l _ => ?_)) (Finset.sum_congr rfl fun l _ => ?_)
  · exact term2_read V c ⟨t.val - 1 - 1 - 1, by omega⟩ r l q i _ _ rfl _ rfl _ rfl A hA H hH SR hSR (by dsimp only; omega) (by dsimp only; omega)
  · exact term2_read V c ⟨t.val - 1 - 1, by omega⟩ r l q i _ _ rfl _ rfl _ rfl A hA H hH SR hSR (by dsimp only; omega) (by dsimp only; omega)
  · exact term2_read V c ⟨t.val - 1, by omega⟩ r l q i _ _ rfl _ rfl _ rfl A hA H hH SR hSR (by dsimp only; omega) (by dsimp only; omega)
  · exact term2_read V c t r l q i _ _ rfl _ rfl _ rfl A hA H hH SR hSR (by omega) (by dsimp only; omega)

/-- What a writing point writes back is its block of that function. -/
theorem flushed2_eq (c : Dev nD) (t : Fin cfg2.N) (hf : (cfg2.win 5).flush t = true) :
    (dat2 (F := Ideal) V c).flushed 5 t = ((cfg2.win 5).blk t).view.read (Elt Ideal) (G2 V c) := by
  have h3 : t.val % 4 = 3 := (flush2_5 t).mp hf
  obtain ⟨-, -, -, -, -, -, -, -, -, -, e50, e51⟩ := idx_facts2 t
  show (cfg2.win 5).cut (grid2.coords t) ((dat2 V c).after 5 t) = _
  rw [after2_5]
  refine funext fun (j : S1024x512.Idx) => ?_
  obtain ⟨r, q, rfl⟩ : ∃ (r : Fin 1024) (q : Fin 512), j = ix2 r q := ⟨j 0, j 1, eq_ix2 j⟩
  rw [View.read_apply]
  have hq : (((cfg2.win 5).blk t).view.emb (ix2 r q)) 1 = q := Fin.ext (by
    show win2_5.index t (1 : Fin 2) * 512 + 1 * q.val = q.val
    rw [e51]; omega)
  show (outsAt2 (F := Ideal) V c t.val t.isLt).1 (ix2 r q)
    = Cert.Gcn.propagate (V c main_arg1) (V c main_v2) (V c main_v9) (V c main_v10)
        ((((cfg2.win 5).blk t).view.emb (ix2 r q)) 0) ((((cfg2.win 5).blk t).view.emb (ix2 r q)) 1)
  rw [hq]
  refine out2_row V c t h3 r q _ ?_ _ rfl _ rfl _ rfl _ rfl
  show win2_5.index t (0 : Fin 2) * 1024 + 1 * r.val = 1024 * (t.val / 4) + r.val
  rw [e50]; omega

theorem mem_blk2 (t : Fin cfg2.N) (i : S8192x512.Idx) :
    i ∈ ((cfg2.win 5).blk t).view.set ↔ ∀ a : Fin 2, win2_5.index t a * S1024x512.size a ≤ (i a).val ∧ (i a).val < win2_5.index t a * S1024x512.size a + S1024x512.size a := by
  show i ∈ ((View.whole main_v11).slice (win2_5.rect t)).set ↔ _
  rw [View.set_slice_whole, Rect.mem_set_unit]
  exact Iff.rfl

/-- Row i lies in the block written at point 4·(i / 1024) + 3. -/
theorem cover2 (i : S8192x512.Idx) : ∃ t : Fin cfg2.N, (cfg2.win 5).flush t = true ∧ i ∈ ((cfg2.win 5).blk t).view.set := by
  have hi0 : (i 0).val < 8192 := (i 0).isLt
  have hi1 : (i 1).val < 512 := (i 1).isLt
  have hN : cfg2.N = 32 := N_2
  refine ⟨⟨4 * ((i 0).val / 1024) + 3, by rw [hN]; omega⟩, (flush2_5 _).mpr (by dsimp only; omega), ?_⟩
  rw [mem_blk2]
  obtain ⟨-, -, -, -, -, -, -, -, -, -, e50, e51⟩ := idx_facts2 ⟨4 * ((i 0).val / 1024) + 3, by rw [hN]; omega⟩
  intro a
  match a with
  | ⟨0, _⟩ =>
    show win2_5.index _ (0 : Fin 2) * 1024 ≤ (i 0).val ∧ (i 0).val < win2_5.index _ (0 : Fin 2) * 1024 + 1024
    rw [e50]; dsimp only; omega
  | ⟨1, _⟩ =>
    show win2_5.index _ (1 : Fin 2) * 512 ≤ (i 1).val ∧ (i 1).val < win2_5.index _ (1 : Fin 2) * 512 + 512
    rw [e51]; omega

/-- The array the region's output window ends with. -/
theorem out_value (c : Dev nD) :
    (dat2 (F := Ideal) V c).arrAt 5 cfg2.N
      = fun j => Cert.Gcn.propagate (V c main_arg1) (V c main_v2) (V c main_v9) (V c main_v10) (j 0) (j 1) :=
  (dat2 (F := Ideal) V c).arrAt_eq_of_cover 5 (G2 V c) (flushed2_eq V c) cover2

end Cert.KernelIdeal.Hand

end
-- ==== Proof.KI.Value.lean ====
/-
  The result array of the idealized kernel is the specification G of its six argument arrays: the three regions'
  output arrays (the projection, the row sums, the propagation of what each was handed) composed through the host lines.
-/
import proofs.«135736_j29987461660874_1_alg».proof.Proof.KI.Compose
import proofs.«135736_j29987461660874_1_alg».proof.Proof.KI.Val0
import proofs.«135736_j29987461660874_1_alg».proof.Proof.KI.Val1
import proofs.«135736_j29987461660874_1_alg».proof.Proof.KI.Val2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg) (c : Dev nD)

theorem out_eq : (dat2 (F := Ideal) (V8 m ρ) c).arrAt 5 cfg2.N
    = Cert.Gcn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  out_eq_of m ρ c (h_value (V1 m ρ) c) (rowsum_value (V2 m ρ) c) (out_value (V8 m ρ) c)

end Cert.KernelIdeal.Hand

end
-- ==== Proof.RefAlgebra.lean ====
/-
  The arithmetic that joins the two arrangements of the propagation step, over the extended reals.

  The normalised-matrix arrangement sums, over the neighbours j of row i,
      ((s i · (a j + [i = j])) · s j) · h j,
  and the row-scale arrangement is  s i · Σ_j (a j · s j) · h j  +  (s i · s i) · h i.
  On the extended reals a product does not distribute over a sum at the infinities, so the law is stated for
  factors that are real numbers: choose the real each factor is, carry the whole expression into ℝ (the
  coercion commutes with +, · and finite sums), and there it is distributivity and the sum of an indicator.
  The degree needs no finiteness: Σ_j (a j + [i = j]) = Σ_j a j + 1 in any additive commutative monoid.
-/
import Mathlib.Data.EReal.Inv
import Mathlib.Algebra.BigOperators.Group.Finset.Basic
import Mathlib.Algebra.BigOperators.Ring.Finset
import Mathlib.Tactic.Ring
import Mathlib.Tactic.NormNum

open scoped BigOperators

namespace Cert.Gcn.Ref

/-- "This extended real is a real number." -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The coercion ℝ → EReal commutes with a finite sum. -/
theorem coe_sum {ι : Type*} (t : Finset ι) (f : ι → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A finite sum of real numbers is a real number. -/
theorem isReal_sum {ι : Type*} (t : Finset ι) (f : ι → EReal) (hf : ∀ j, IsReal (f j)) : IsReal (∑ j ∈ t, f j) := by
  choose g hg using hf
  exact ⟨∑ j ∈ t, g j, by rw [coe_sum]; exact Finset.sum_congr rfl fun j _ => hg j⟩

/-- The degree: the row sum of the matrix with the unit diagonal added, started from 0, is the row sum plus one. -/
theorem degree_eq {ι : Type*} [Fintype ι] [DecidableEq ι] (a : ι → EReal) (i : ι) :
    (0 : EReal) + ∑ j, (a j + (if i = j then (1 : EReal) else 0)) = (∑ j, a j) + 1 := by
  rw [zero_add, Finset.sum_add_distrib, Finset.sum_ite_eq Finset.univ i (fun _ => (1 : EReal)), if_pos (Finset.mem_univ i)]

/-- The same law in ℝ: distributivity, and the indicator picks the diagonal term. -/
theorem propagate_real {ι : Type*} [Fintype ι] [DecidableEq ι] (a s h : ι → ℝ) (i : ι) :
    ∑ j, ((s i * (a j + (if i = j then (1 : ℝ) else 0))) * s j) * h j
      = s i * (∑ j, (a j * s j) * h j) + (s i * s i) * h i := by
  have e : ∀ j, ((s i * (a j + (if i = j then (1 : ℝ) else 0))) * s j) * h j
      = s i * ((a j * s j) * h j) + (if i = j then (s i * s j) * h j else 0) := by
    intro j; split_ifs <;> ring
  rw [Finset.sum_congr rfl fun j _ => e j, Finset.sum_add_distrib, ← Finset.mul_sum,
    Finset.sum_ite_eq Finset.univ i (fun j => (s i * s j) * h j), if_pos (Finset.mem_univ i)]

/-- The propagation law on the extended reals, for real factors: the normalised-matrix arrangement is the
    row-scale arrangement with the self loop apart. -/
theorem propagate_eq {ι : Type*} [Fintype ι] [DecidableEq ι] (a s h : ι → EReal) (i : ι)
    (ha : ∀ j, IsReal (a j)) (hs : ∀ j, IsReal (s j)) (hh : ∀ j, IsReal (h j)) :
    ∑ j, ((s i * (a j + (if i = j then (1 : EReal) else 0))) * s j) * h j
      = s i * (∑ j, (a j * s j) * h j) + (s i * s i) * h i := by
  choose a' ha' using ha
  choose s' hs' using hs
  choose h' hh' using hh
  have ind : ∀ j, (if i = j then (1 : EReal) else 0) = ((if i = j then (1 : ℝ) else 0 : ℝ) : EReal) := by
    intro j; split_ifs <;> simp
  have el : ∀ j, ((s i * (a j + (if i = j then (1 : EReal) else 0))) * s j) * h j
      = ((((s' i * (a' j + (if i = j then (1 : ℝ) else 0))) * s' j) * h' j : ℝ) : EReal) := by
    intro j
    rw [ind, hs' i, ha' j, hs' j, hh' j, ← EReal.coe_add, ← EReal.coe_mul, ← EReal.coe_mul, ← EReal.coe_mul]
  have er : ∀ j, (a j * s j) * h j = (((a' j * s' j) * h' j : ℝ) : EReal) := by
    intro j
    rw [ha' j, hs' j, hh' j, ← EReal.coe_mul, ← EReal.coe_mul]
  rw [Finset.sum_congr rfl fun j _ => el j, Finset.sum_congr rfl fun j _ => er j, ← coe_sum, ← coe_sum,
    hs' i, hh' i, ← EReal.coe_mul, ← EReal.coe_mul, ← EReal.coe_mul, ← EReal.coe_add, propagate_real]

end Cert.Gcn.Ref
-- ==== Proof.RefReal.lean ====
/-
  Which of the layer's quantities are real numbers.

  The scale s = d^(-1/2) with an infinite value replaced by 0 is a real number for EVERY extended real d: the
  power p is ⊥, ⊤ or a real; in the first two cases |p| = max p (-p) = ⊤, the comparison with +∞ holds and the
  selection returns the literal 0; for a real p the absolute value is a real, the comparison fails and the
  selection returns p. The features h = (x·W1ᵀ + b1)·W2ᵀ + b2 are real when the five arrays they are built
  from are: finite sums and products of reals.
-/
import proofs.«135736_j29987461660874_1_alg».proof.Proof.Spec
import proofs.«135736_j29987461660874_1_alg».proof.Proof.RefAlgebra
import Idealize.ShloMosaic.PureOps.Ideal.Laws

noncomputable section

open scoped BigOperators

namespace Cert.Gcn.Ref

open Idealize.ShloMosaic Idealize.ShloMosaic.ValueIdx

/-- Every entry of every argument array is a real number. -/
def RealArgs (x0 : Cert.Gcn.Mat 8192 512) (x1 : Cert.Gcn.Mat 8192 8192) (x2 : Cert.Gcn.Mat 256 512) (x3 : Cert.Gcn.Col 256)
    (x4 : Cert.Gcn.Mat 512 256) (x5 : Cert.Gcn.Col 512) : Prop :=
  (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))

/-- The f32 pattern of +∞ is the top element. -/
theorem ofBits_inf_f32 : Ideal.ofBits .f32 0x7F800000#32 = ⊤ := by simp [Ideal.ofBits, Ideal.ieee]

/-- The selection "0 where |p| = +∞, else p" is a real number, whatever p is. -/
theorem isReal_select_inf (p : EReal) :
    IsReal (Scalar.select
      (FloatOps.cmpf (F := Ideal) (φ := .f32) .oeq (FloatOps.hostAbsf (F := Ideal) (φ := .f32) p) (Ideal.ofBits .f32 0x7F800000#32))
      (Ideal.ofBits .f32 0x00000000#32) p) := by
  rw [Ideal.hostAbsf_def, Ideal.absf_def, Ideal.cmpf_def, ofBits_inf_f32, Ideal.ofBits_zero_f32]
  induction p using EReal.rec with
  | bot =>
    have e : Ideal.cmp .oeq (max (⊥ : EReal) (-⊥)) ⊤ = 1#1 := by simp [Ideal.cmp]
    rw [e, select_one]; exact isReal_zero
  | top =>
    have e : Ideal.cmp .oeq (max (⊤ : EReal) (-⊤)) ⊤ = 1#1 := by simp [Ideal.cmp]
    rw [e, select_one]; exact isReal_zero
  | coe r =>
    have e : Ideal.cmp .oeq (max (r : EReal) (-(r : EReal))) ⊤ = 0#1 := by
      have hne : max (r : EReal) (-(r : EReal)) ≠ ⊤ :=
        (max_lt (EReal.coe_lt_top r) (by rw [← EReal.coe_neg]; exact EReal.coe_lt_top (-r))).ne
      simp [Ideal.cmp, hne]
    rw [e, select_zero]; exact isReal_coe r

/-- The scale of a degree is a real number, for every degree. -/
theorem isReal_invSqrt (d : EReal) : IsReal (invSqrt d) := isReal_select_inf _

theorem isReal_scale (adj : Mat 8192 8192) (i : Fin 8192) : IsReal (scale adj i) := isReal_invSqrt _

/-- The hidden layer is real when x, W1, b1 are. -/
theorem isReal_hid (x : Mat 8192 512) (W1 : Mat 256 512) (b1 : Col 256)
    (hx : ∀ i, ∃ r : ℝ, x i = (r : EReal)) (hW : ∀ i, ∃ r : ℝ, W1 i = (r : EReal)) (hb : ∀ i, ∃ r : ℝ, b1 i = (r : EReal))
    (i : Fin 8192) (p : Fin 256) : IsReal (hid x W1 b1 i p) :=
  IsReal.add (isReal_sum _ _ fun k => IsReal.mul (hx (ix2 i k)) (hW (ix2 p k))) (hb (ix1 p))

/-- The projected features are real when the five arrays they are built from are. -/
theorem isReal_feat (x : Mat 8192 512) (W1 : Mat 256 512) (b1 : Col 256) (W2 : Mat 512 256) (b2 : Col 512)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (i : Fin 8192) (q : Fin 512) : IsReal (feat x W1 b1 W2 b2 i q) :=
  IsReal.add (isReal_sum _ _ fun p => IsReal.mul (isReal_hid x W1 b1 hx hW1 hb1 i p) (hW2 (ix2 q p))) (hb2 (ix1 q))

end Cert.Gcn.Ref

end
-- ==== Proof.RefFeat.lean ====
/-
  The reference's two dense layers, read entry by entry.

  The reference transposes a weight matrix and contracts against the transpose, and adds a bias broadcast along the
  rows; read at an entry, the transposition only swaps the two coordinates of the weight's index and the broadcast
  only drops the row coordinate, so the entry is  Σ_k x[i,k]·W1[p,k] + b1[p]  for the hidden layer and
  Σ_p h1[i,p]·W2[q,p] + b2[q]  for the projected features: the specification's hid and feat, term for term.
-/
import proofs.«135736_j29987461660874_1_alg».proof.Proof.Spec
import proofs.«135736_j29987461660874_1_alg».proof.Proof.Gen.ReferenceIdeal.Read

noncomputable section

open scoped BigOperators

namespace Cert.Gcn.Ref

open Idealize.ShloMosaic Idealize.ShloMosaic.ValueIdx Cert.ReferenceIdeal

/-! ### The composed index functions of the two layers, at coordinates -/

theorem lidx_v1 (i : Fin 8192) (p : Fin 256) (k : Fin 512) : Read.lidx_main_v1 (ix2 i p) k = ix2 i k :=
  funext fun a => Fin.ext (by match a with | ⟨0, _⟩ => rfl | ⟨1, _⟩ => rfl)

theorem ridx_v1 (i : Fin 8192) (p : Fin 256) (k : Fin 512) :
    Read.idx_main_v0 (Read.ridx_main_v1 (ix2 i p) k) = ix2 p k :=
  funext fun a => Fin.ext (by match a with | ⟨0, _⟩ => rfl | ⟨1, _⟩ => rfl)

theorem idx_v3 (i : Fin 8192) (p : Fin 256) : Read.idx_main_v2 (Read.idx_main_v3 (ix2 i p)) = ix1 p :=
  funext fun a => Fin.ext (by match a with | ⟨0, _⟩ => rfl)

theorem lidx_v6 (i : Fin 8192) (q : Fin 512) (p : Fin 256) : Read.lidx_main_v6 (ix2 i q) p = ix2 i p :=
  funext fun a => Fin.ext (by match a with | ⟨0, _⟩ => rfl | ⟨1, _⟩ => rfl)

theorem ridx_v6 (i : Fin 8192) (q : Fin 512) (p : Fin 256) :
    Read.idx_main_v5 (Read.ridx_main_v6 (ix2 i q) p) = ix2 q p :=
  funext fun a => Fin.ext (by match a with | ⟨0, _⟩ => rfl | ⟨1, _⟩ => rfl)

theorem idx_v8 (i : Fin 8192) (q : Fin 512) : Read.idx_main_v7 (Read.idx_main_v8 (ix2 i q)) = ix1 q :=
  funext fun a => Fin.ext (by match a with | ⟨0, _⟩ => rfl)

/-! ### The layers -/

/-- The reference's hidden layer at entry (i,p). -/
theorem hid_read (x0 : (⟨S8192x512, .f32⟩ : BufTy).Contents (Elt Ideal)) (x2 : (⟨S256x512, .f32⟩ : BufTy).Contents (Elt Ideal))
    (x3 : (⟨S256, .f32⟩ : BufTy).Contents (Elt Ideal)) (i : Fin 8192) (p : Fin 256) :
    Read.val_main_v4 (F := Ideal) x0 x2 x3 (ix2 i p) = hid x0 x2 x3 i p := by
  rw [Read.val_main_v4_apply, Read.val_main_v1_apply, Read.val_main_v3_apply, Read.val_main_v2_apply, idx_v3]
  unfold hid
  refine congrArg (· + x3 (ix1 p)) (Finset.sum_congr rfl fun k _ => ?_)
  rw [Read.val_main_v0_apply, lidx_v1, ridx_v1]

/-- The reference's projected features at entry (i,q). -/
theorem feat_read (x0 : (⟨S8192x512, .f32⟩ : BufTy).Contents (Elt Ideal)) (x2 : (⟨S256x512, .f32⟩ : BufTy).Contents (Elt Ideal))
    (x3 : (⟨S256, .f32⟩ : BufTy).Contents (Elt Ideal)) (x4 : (⟨S512x256, .f32⟩ : BufTy).Contents (Elt Ideal))
    (x5 : (⟨S512, .f32⟩ : BufTy).Contents (Elt Ideal)) (i : Fin 8192) (q : Fin 512) :
    Read.val_main_v9 (F := Ideal) x0 x2 x3 x4 x5 (ix2 i q) = feat x0 x2 x3 x4 x5 i q := by
  rw [Read.val_main_v9_apply, Read.val_main_v6_apply, Read.val_main_v8_apply, Read.val_main_v7_apply, idx_v8]
  unfold feat
  refine congrArg (· + x5 (ix1 q)) (Finset.sum_congr rfl fun p _ => ?_)
  rw [Read.val_main_v5_apply, lidx_v6, ridx_v6, hid_read]

end Cert.Gcn.Ref

end
-- ==== Proof.RefNorm.lean ====
/-
  The reference's normalised adjacency matrix, read entry by entry.

  The unit diagonal is built from two index grids: entry (i,k) compares the row number (plus the constant 0) with
  the column number as 32-bit words and converts the one-bit answer to a float, so it is 1 when i = k and 0
  otherwise (both numbers are below 2^32, so the words are equal exactly when the numbers are). The row sum of
  adj + I, started from the literal 0, is the degree Σ_k adj[i,k] + 1; the scale is the specification's function of the
  degree; and entry (i,k) of the normalised matrix is (s[i]·(adj[i,k] + [i = k]))·s[k], the two broadcasts of the scale
  vector reading it at the row and at the column.
-/
import proofs.«135736_j29987461660874_1_alg».proof.Proof.Spec
import proofs.«135736_j29987461660874_1_alg».proof.Proof.RefAlgebra
import proofs.«135736_j29987461660874_1_alg».proof.Proof.Gen.ReferenceIdeal.Read

noncomputable section

open scoped BigOperators

namespace Cert.Gcn.Ref

open Idealize.ShloMosaic Idealize.ShloMosaic.ValueIdx Cert.ReferenceIdeal

/-! ### The unit diagonal -/

/-- Two numbers below 8192, as 32-bit words (the first with the word 0 added), are equal words exactly when they are equal. -/
theorem word_eq_iff (i k : Fin 8192) :
    IntOp.addi (BitVec.ofNat 32 i.val) 0#32 = BitVec.ofNat 32 k.val ↔ i = k := by
  have hi : i.val < 2 ^ 32 := lt_trans i.isLt (by decide)
  have hk : k.val < 2 ^ 32 := lt_trans k.isLt (by decide)
  constructor
  · intro e
    have e' := congrArg BitVec.toNat e
    simp only [IntOp.addi, BitVec.add_zero, BitVec.toNat_ofNat, Nat.mod_eq_of_lt hi, Nat.mod_eq_of_lt hk] at e'
    exact Fin.ext e'
  · rintro rfl
    simp only [IntOp.addi, BitVec.add_zero]

/-- Entry (i,k) of the unit diagonal, as the reference builds it. -/
theorem eye_read (i k : Fin 8192) :
    Read.val_main_v15 (F := Ideal) (ix2 i k) = if i = k then (1 : EReal) else 0 := by
  rw [Read.val_main_v15_apply, Read.val_main_v14_apply, Read.val_main_v13_apply, Read.val_main_v10_apply,
    Read.val_main_v12_apply, Read.val_main_c_apply, Read.val_main_v11_apply]
  show (((IntOp.cmpi .eq (IntOp.addi (BitVec.ofNat 32 i.val) 0#32) (BitVec.ofNat 32 k.val)).toNat : ℝ) : EReal) = _
  by_cases h : i = k
  · rw [if_pos h, show IntOp.cmpi .eq (IntOp.addi (BitVec.ofNat 32 i.val) 0#32) (BitVec.ofNat 32 k.val) = 1#1 by
      simp only [IntOp.cmpi, (word_eq_iff i k).mpr h, beq_self_eq_true, BitVec.ofBool_true]; rfl]
    simp
  · rw [if_neg h, show IntOp.cmpi .eq (IntOp.addi (BitVec.ofNat 32 i.val) 0#32) (BitVec.ofNat 32 k.val) = 0#1 by
      have hne : ¬ IntOp.addi (BitVec.ofNat 32 i.val) 0#32 = BitVec.ofNat 32 k.val := fun e => h ((word_eq_iff i k).mp e)
      simp only [IntOp.cmpi, beq_eq_false_iff_ne.mpr hne, BitVec.ofBool_false]; rfl]
    simp

/-! ### The composed index functions, at coordinates -/

theorem idx_v17 (i k : Fin 8192) : Read.idx_main_v17 (ix1 i) k = ix2 i k :=
  funext fun a => Fin.ext (by match a with | ⟨0, _⟩ => rfl | ⟨1, _⟩ => rfl)

theorem idx_v23 (i k : Fin 8192) : Read.idx_main_v22 (Read.idx_main_v23 (ix2 i k)) = ix1 i :=
  funext fun a => Fin.ext (by match a with | ⟨0, _⟩ => rfl)

theorem idx_v26 (i k : Fin 8192) : Read.idx_main_v25 (Read.idx_main_v26 (ix2 i k)) = ix1 k :=
  funext fun a => Fin.ext (by match a with | ⟨0, _⟩ => rfl)

/-! ### Degree, scale, normalised entry -/

/-- Entry (i,k) of adj + I. -/
theorem loops_read (x1 : (⟨S8192x8192, .f32⟩ : BufTy).Contents (Elt Ideal)) (i k : Fin 8192) :
    Read.val_main_v16 (F := Ideal) x1 (ix2 i k) = x1 (ix2 i k) + (if i = k then (1 : EReal) else 0) := by
  rw [Read.val_main_v16_apply, eye_read]; rfl

/-- The reference's row sum of adj + I is the degree. -/
theorem deg_read (x1 : (⟨S8192x8192, .f32⟩ : BufTy).Contents (Elt Ideal)) (i : Fin 8192) :
    Read.val_main_v17 (F := Ideal) x1 (ix1 i) = deg x1 i := by
  rw [Read.val_main_v17_apply, Read.val_main_cst_apply,
    Finset.sum_congr rfl fun k _ => (congrArg (Read.val_main_v16 (F := Ideal) x1) (idx_v17 i k)).trans (loops_read x1 i k)]
  show Ideal.ofBits .f32 0x00000000#32 + _ = _
  rw [Ideal.ofBits_zero_f32]
  exact degree_eq (fun k => x1 (ix2 i k)) i

/-- The reference's scale vector is the specification's. -/
theorem scale_read (x1 : (⟨S8192x8192, .f32⟩ : BufTy).Contents (Elt Ideal)) (i : Fin 8192) :
    Read.val_main_v21 (F := Ideal) x1 (ix1 i) = scale x1 i := by
  rw [Read.val_main_v21_apply, Read.val_main_v20_apply, Read.val_main_call0_v0_apply, Read.val_main_v19_apply,
    Read.val_main_call0_v1_apply, Read.val_main_call0_cst_apply, Read.val_main_call1_v1_apply, Read.val_main_call1_v0_apply,
    Read.val_main_cst_1_apply, Read.val_main_v18_apply, Read.val_main_cst_0_apply, deg_read]
  rfl

/-- Entry (i,k) of the normalised matrix. -/
theorem norm_read (x1 : (⟨S8192x8192, .f32⟩ : BufTy).Contents (Elt Ideal)) (i k : Fin 8192) :
    Read.val_main_v27 (F := Ideal) x1 (ix2 i k)
      = (scale x1 i * (x1 (ix2 i k) + (if i = k then (1 : EReal) else 0))) * scale x1 k := by
  rw [Read.val_main_v27_apply, Read.val_main_v24_apply, Read.val_main_v23_apply, Read.val_main_v22_apply,
    Read.val_main_v26_apply, Read.val_main_v25_apply, idx_v23, idx_v26, scale_read, scale_read, loops_read]
  rfl

end Cert.Gcn.Ref

end
-- ==== Proof.RefValue.lean ====
/-
  The reference's result array is the specification's G when the arguments are real.

  Entry (i,q) of the reference's last product is Σ_k N[i,k]·h[k,q], with N the normalised matrix
  (s[i]·(adj[i,k] + [i = k]))·s[k] and h the projected features. The adjacency entries are real by hypothesis, the
  scale is real for every degree, and the features are real because the five arrays they are built from are; so
  the propagation law applies and the sum is s[i]·Σ_k (adj[i,k]·s[k])·h[k,q] + (s[i]·s[i])·h[i,q].
-/
import proofs.«135736_j29987461660874_1_alg».proof.Proof.RefReal
import proofs.«135736_j29987461660874_1_alg».proof.Proof.RefFeat
import proofs.«135736_j29987461660874_1_alg».proof.Proof.RefNorm

noncomputable section

open scoped BigOperators

namespace Cert.Gcn.Ref

open Idealize.ShloMosaic Idealize.ShloMosaic.ValueIdx Cert.ReferenceIdeal

theorem lidx_v28 (i : Fin 8192) (q : Fin 512) (k : Fin 8192) : Read.lidx_main_v28 (ix2 i q) k = ix2 i k :=
  funext fun a => Fin.ext (by match a with | ⟨0, _⟩ => rfl | ⟨1, _⟩ => rfl)

theorem ridx_v28 (i : Fin 8192) (q : Fin 512) (k : Fin 8192) : Read.ridx_main_v28 (ix2 i q) k = ix2 k q :=
  funext fun a => Fin.ext (by match a with | ⟨0, _⟩ => rfl | ⟨1, _⟩ => rfl)

/-- The reference's result array, at Ideal, is G of the argument arrays when these are real. -/
theorem result_eq (x0 : (⟨Cert.ReferenceIdeal.S8192x512, .f32⟩ : BufTy).Contents (Elt Ideal))
    (x1 : (⟨Cert.ReferenceIdeal.S8192x8192, .f32⟩ : BufTy).Contents (Elt Ideal))
    (x2 : (⟨Cert.ReferenceIdeal.S256x512, .f32⟩ : BufTy).Contents (Elt Ideal))
    (x3 : (⟨Cert.ReferenceIdeal.S256, .f32⟩ : BufTy).Contents (Elt Ideal))
    (x4 : (⟨Cert.ReferenceIdeal.S512x256, .f32⟩ : BufTy).Contents (Elt Ideal))
    (x5 : (⟨Cert.ReferenceIdeal.S512, .f32⟩ : BufTy).Contents (Elt Ideal))
    (h : RealArgs x0 x1 x2 x3 x4 x5) :
    Cert.ReferenceIdeal.Read.val_main_v28 (F := Ideal) x0 x1 x2 x3 x4 x5 = Cert.Gcn.G x0 x1 x2 x3 x4 x5 := by
  obtain ⟨h0, h1, h2, h3, h4, h5⟩ := h
  funext j
  obtain ⟨i, q, rfl⟩ : ∃ (i : Fin 8192) (q : Fin 512), j = ix2 i q := ⟨j 0, j 1, eq_ix2 j⟩
  rw [Read.val_main_v28_apply,
    Finset.sum_congr rfl fun k _ => show
      Read.val_main_v27 (F := Ideal) x1 (Read.lidx_main_v28 (ix2 i q) k)
          * Read.val_main_v9 (F := Ideal) x0 x2 x3 x4 x5 (Read.ridx_main_v28 (ix2 i q) k)
        = ((scale x1 i * (x1 (ix2 i k) + (if i = k then (1 : EReal) else 0))) * scale x1 k) * feat x0 x2 x3 x4 x5 k q by
      rw [lidx_v28, ridx_v28, norm_read, feat_read]]
  show _ = outK x0 x1 x2 x3 x4 x5 i q
  unfold outK
  exact propagate_eq (fun k => x1 (ix2 i k)) (scale x1) (fun k => feat x0 x2 x3 x4 x5 k q) i
    (fun k => h1 (ix2 i k)) (isReal_scale x1) (fun k => isReal_feat x0 x2 x3 x4 x5 h0 h2 h3 h4 h5 k q)

end Cert.Gcn.Ref

end
-- ==== Proof.RefFinite.lean ====
/-
  The precondition gives real entries.

  The precondition is the conjunction, over the six argument arrays, of "every entry x satisfies |x| < +∞". A
  conjunction of one-bit words is 1 only if each word is; a reduction by "and" over a whole array is 1 only if every
  element is; and on the extended reals |x| = max x (-x) is below ⊤ only for a real x, since at ⊥ and at ⊤ it is ⊤.
-/
import proofs.«135736_j29987461660874_1_alg».proof.Pre_finite_inputs
import proofs.«135736_j29987461660874_1_alg».proof.Proof.RefReal
import Idealize.ShloMosaic.Lib.ReduceAll

noncomputable section

namespace Cert.Gcn.Ref

open Idealize.ShloMosaic Idealize.ShloMosaic.ValueIdx

/-- An extended real whose absolute value is below +∞ is a real number. -/
theorem isReal_of_abs_lt_inf (x : EReal)
    (h : FloatOps.cmpf (F := Ideal) (φ := .f32) .olt (FloatOps.hostAbsf (F := Ideal) (φ := .f32) x) (Ideal.ofBits .f32 0x7F800000#32)
      = 1#1) : IsReal x := by
  rw [Ideal.hostAbsf_def, Ideal.absf_def, Ideal.cmpf_def, ofBits_inf_f32] at h
  induction x using EReal.rec with
  | bot => simp [Ideal.cmp] at h
  | top => simp [Ideal.cmp] at h
  | coe r => exact isReal_coe r

/-- The scalar shape has one index. -/
instance subsingleton_scalar_idx : Subsingleton (⟨0, ![]⟩ : Shape).Idx := ⟨fun a b => funext fun d => d.elim0⟩

/-- One array's conjunct: if "all |x| < +∞" came out 1, every entry is real. -/
theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) :=
  isReal_of_abs_lt_inf (x i) (Host.reduce_andi_all _ _ hr hu ix0 e i)

/-- The precondition (every |entry| < +∞, all six arrays) gives real entries. -/
theorem real_of_pre [Cert.Pre_finite_inputs.Facts]
    (x0 : FVec Ideal Cert.Pre_finite_inputs.S8192x512 .f32) (x1 : FVec Ideal Cert.Pre_finite_inputs.S8192x8192 .f32)
    (x2 : FVec Ideal Cert.Pre_finite_inputs.S256x512 .f32) (x3 : FVec Ideal Cert.Pre_finite_inputs.S256 .f32)
    (x4 : FVec Ideal Cert.Pre_finite_inputs.S512x256 .f32) (x5 : FVec Ideal Cert.Pre_finite_inputs.S512 .f32)
    (h : Cert.Pre_finite_inputs.fn (F := Ideal) x0 x1 x2 x3 x4 x5 = (fun _ => 1#1)) : RealArgs x0 x1 x2 x3 x4 x5 := by
  have h0 := congrFun h ValueIdx.ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨isReal_of_all x0 _ _ _ e0, isReal_of_all x1 _ _ _ e1, isReal_of_all x2 _ _ _ e2, isReal_of_all x3 _ _ _ e3,
    isReal_of_all x4 _ _ _ e4, isReal_of_all x5 _ _ _ e5⟩

end Cert.Gcn.Ref

end
-- ==== Proof.lean ====
/-
  A graph-convolution layer: features h = (x·W1ᵀ + b1)·W2ᵀ + b2, degrees d = adj·1 + 1, scale s = d^(-1/2) with an
  infinite value replaced by 0, result s_i·Σ_j (adj_ij·s_j)·h_j + s_i²·h_i — against the reference's
  ((diag s)(adj + I)(diag s))·h.

  The kernel program runs three pipelined regions between host lines: the dense projection, the row sums of the
  adjacency matrix accumulated over four column blocks in a scratch column, and the propagation accumulated over the
  same four column blocks in a scratch block, the features read through two windows on one array. Each region's frame
  — it terminates, faults nowhere, leaves every array but its output as found — is proved from the body's run at each
  grid point in each of its control cases, for any float values; the three compose through the host lines, which gives
  the frame of the kernel as printed and of its idealization, and for the latter also the result array as what the
  last region's write-backs leave.

  Over the extended reals that array is the specification G of the arguments: regrouping the blocked sums needs only
  that addition is commutative and associative. The reference's result is G of the same arguments when these are real
  numbers — there the self loop is folded into the matrix, and taking it out of the sum is distributivity, which needs
  finite factors: the precondition gives finite inputs, finite sums and products of those are finite, and the scale is
  finite by its own definition.
-/
import proofs.«135736_j29987461660874_1_alg».proof.Defs
import proofs.«135736_j29987461660874_1_alg».proof.Proof.Gen.Kernel
import proofs.«135736_j29987461660874_1_alg».proof.Proof.Gen.KernelIdeal
import proofs.«135736_j29987461660874_1_alg».proof.Proof.Gen.ReferenceIdeal
import proofs.«135736_j29987461660874_1_alg».proof.Proof.Gen.Pre_finite_inputs
import proofs.«135736_j29987461660874_1_alg».proof.Proof.Gen.ReferenceIdeal.Run
import proofs.«135736_j29987461660874_1_alg».proof.Proof.Gen.ReferenceIdeal.Read
import proofs.«135736_j29987461660874_1_alg».proof.Proof.K.Run
import proofs.«135736_j29987461660874_1_alg».proof.Proof.KI.Value
import proofs.«135736_j29987461660874_1_alg».proof.Proof.RefValue
import proofs.«135736_j29987461660874_1_alg».proof.Proof.RefFinite
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification G of the arguments: the kernel for any extended-real inputs, the
    reference for real ones, which the precondition gives. -/
theorem algebraic : Cert.algebraic_KernelIdeal_ReferenceIdeal := by
  intro m ρ m' ρ' hpre hagree
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.out_eq m ρ c), (h c).2⟩) (Cert.KernelIdeal.Hand.run_main m ρ)
  · refine (θ_run Cert.ReferenceIdeal.defs _ _).mono (fun _ h c => ⟨?_, (h c).2⟩)
      (Cert.ReferenceIdeal.Value.run (F := Ideal) m' ρ')
    have hr := Cert.Gcn.Ref.real_of_pre _ _ _ _ _ _ (hpre c)
    obtain ⟨e0, e1, e2, e3, e4, e5⟩ := hagree c
    rw [(h c).1, Cert.ReferenceIdeal.Read.val_main_v28_eq, e0, e1, e2, e3, e4, e5]
    exact Cert.Gcn.Ref.result_eq _ _ _ _ _ _ hr

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
